-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000x64 : Shape := ⟨2, ![320000, 64]⟩
abbrev S576x512 : Shape := ⟨2, ![576, 512]⟩
abbrev S512 : Shape := ⟨1, ![512]⟩
abbrev S512x512 : Shape := ⟨2, ![512, 512]⟩
abbrev S768x512 : Shape := ⟨2, ![768, 512]⟩
abbrev S512x256 : Shape := ⟨2, ![512, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x64 : S_.BroadcastsInDim S320000x64 (![] : Fin 0 → Fin S320000x64.rank)
  reducesTo_S320000x64_S_d0_1 : S320000x64.ReducesTo [0, 1] S_
  bcast_S_S576x512 : S_.BroadcastsInDim S576x512 (![] : Fin 0 → Fin S576x512.rank)
  reducesTo_S576x512_S_d0_1 : S576x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S768x512 : S_.BroadcastsInDim S768x512 (![] : Fin 0 → Fin S768x512.rank)
  reducesTo_S768x512_S_d0_1 : S768x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S512 .f32) (main_arg9 : FVec F S512x256 .f32) (main_arg10 : FVec F S256 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S768x512 .f32) (main_arg8 : FVec F S512 .f32) (main_arg9 : FVec F S512x256 .f32) (main_arg10 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S768x512 .f32 := Host.absf main_arg7
  let main_cst_10 : FVec F S_ .f32 := constant S_ .f32 0x7F800000#32
  let main_v30 : FVec F S768x512 .f32 := broadcastInDim S768x512 ![] bcast_S_S768x512 main_cst_10
  let main_v31 : IVec S768x512 1 := cmpf .olt main_v29 main_v30
  let main_c_11 : IVec S_ 1 := constantI S_ 1 1#1
  let main_v32 : IVec S_ 1 := (fun x v => Host.reduce IntOp.andi x v reducesTo_S768x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S20000x256 .f32) (main_arg1 : IVec S2x320000 32) (main_arg2 : FVec F S320000x64 .f32) (main_arg3 : FVec F S576x512 .f32) (main_arg4 : FVec F S512 .f32) (main_arg5 : FVec F S512x512 .f32) (main_arg6 : FVec F S512 .f32) (main_arg7 : FVec F S768x512 .f32) (main_arg8 : FVec F S512 .f32) (main_arg9 : FVec F S512x256 .f32) (main_arg10 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x64 .f32 := Host.absf main_arg2
  let main_cst_0 : FVec F S_ .f32 := constant S_ .f32 0x7F800000#32
  let main_v5 : FVec F S320000x64 .f32 := broadcastInDim S320000x64 ![] bcast_S_S320000x64 main_cst_0
  let main_v6 : IVec S320000x64 1 := cmpf .olt main_v4 main_v5
  let main_c_1 : IVec S_ 1 := constantI S_ 1 1#1
  let main_v7 : IVec S_ 1 := (fun x v => Host.reduce IntOp.andi x v reducesTo_S320000x64_S_d0_1 h_S_) main_v6 main_c_1
  let main_v8 : IVec S_ 1 := andi main_v3 main_v7
  let main_v9 : FVec F S576x512 .f32 := Host.absf main_arg3
  let main_cst_2 : FVec F S_ .f32 := constant S_ .f32 0x7F800000#32
  let main_v10 : FVec F S576x512 .f32 := broadcastInDim S576x512 ![] bcast_S_S576x512 main_cst_2
  let main_v11 : IVec S576x512 1 := cmpf .olt main_v9 main_v10
  let main_c_3 : IVec S_ 1 := constantI S_ 1 1#1
  let main_v12 : IVec S_ 1 := (fun x v => Host.reduce IntOp.andi x v reducesTo_S576x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S20000x256 : Shape := ⟨2, ![20000, 256]⟩
abbrev S2x320000 : Shape := ⟨2, ![2, 320000]⟩
abbrev S320000x64 : Shape := ⟨2, ![320000, 64]⟩
abbrev S576x512 : Shape := ⟨2, ![576, 512]⟩
abbrev S512 : Shape := ⟨1, ![512]⟩
abbrev S512x512 : Shape := ⟨2, ![512, 512]⟩
abbrev S768x512 : Shape := ⟨2, ![768, 512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S256x512 : Shape := ⟨2, ![256, 512]⟩
abbrev S64x512 : Shape := ⟨2, ![64, 512]⟩
abbrev S320000x512 : Shape := ⟨2, ![320000, 512]⟩
abbrev S1600x256 : Shape := ⟨2, ![1600, 256]⟩
abbrev S1600x64 : Shape := ⟨2, ![1600, 64]⟩
abbrev S1600x512 : Shape := ⟨2, ![1600, 512]⟩
abbrev S1x512 : Shape := ⟨2, ![1, 512]⟩
abbrev S20000x512 : Shape := ⟨2, ![20000, 512]⟩
abbrev S1000x256 : Shape := ⟨2, ![1000, 256]⟩
abbrev S1000x512 : Shape := ⟨2, ![1000, 512]⟩
abbrev S1x256 : Shape := ⟨2, ![1, 256]⟩

abbrev nBuf : Space → Nat
  | .hbm => 53
  | .vmem => 25
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000x64, .f32⟩
  | .hbm, ⟨3, _⟩ => ⟨S576x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S768x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S20000x256, .bf16⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x256, .bf16⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x256, .bf16⟩
  | .hbm, ⟨34, _⟩ => ⟨S320000x64, .bf16⟩
  | .hbm, ⟨35, _⟩ => ⟨S256x512, .f32⟩
  | .hbm, ⟨36, _⟩ => ⟨S256x512, .bf16⟩
  | .hbm, ⟨37, _⟩ => ⟨S256x512, .f32⟩
  | .hbm, ⟨38, _⟩ => ⟨S256x512, .bf16⟩
  | .hbm, ⟨39, _⟩ => ⟨S64x512, .f32⟩
  | .hbm, ⟨40, _⟩ => ⟨S64x512, .bf16⟩
  | .hbm, ⟨41, _⟩ => ⟨S512x512, .bf16⟩
  | .hbm, ⟨42, _⟩ => ⟨S320000x512, .f32⟩
  | .hbm, ⟨43, _⟩ => ⟨S_, .f32⟩
  | .hbm, ⟨44, _⟩ => ⟨S20000x512, .f32⟩
  | .hbm, ⟨45, _⟩ => ⟨S320000x1, .i32⟩
  | .hbm, ⟨46, _⟩ => ⟨S20000x512, .f32⟩
  | .hbm, ⟨47, _⟩ => ⟨S256x512, .f32⟩
  | .hbm, ⟨48, _⟩ => ⟨S256x512, .bf16⟩
  | .hbm, ⟨49, _⟩ => ⟨S512x512, .f32⟩
  | .hbm, ⟨50, _⟩ => ⟨S512x512, .bf16⟩
  | .hbm, ⟨51, _⟩ => ⟨S512x256, .bf16⟩
  | .hbm, ⟨52, _⟩ => ⟨S20000x256, .f32⟩
  | .local _ .vmem, ⟨0, _⟩ => ⟨S1600x256, .bf16⟩
  | .local _ .vmem, ⟨1, _⟩ => ⟨S1600x256, .bf16⟩
  | .local _ .vmem, ⟨2, _⟩ => ⟨S1600x256, .bf16⟩
  | .local _ .vmem, ⟨3, _⟩ => ⟨S1600x256, .bf16⟩
  | .local _ .vmem, ⟨4, _⟩ => ⟨S1600x64, .bf16⟩
  | .local _ .vmem, ⟨5, _⟩ => ⟨S1600x64, .bf16⟩
  | .local _ .vmem, ⟨6, _⟩ => ⟨S256x512, .bf16⟩
  | .local _ .vmem, ⟨7, _⟩ => ⟨S256x512, .bf16⟩
  | .local _ .vmem, ⟨8, _⟩ => ⟨S64x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S1600x512, .f32⟩
  | .local _ .vmem, ⟨13, _⟩ => ⟨S1600x512, .f32⟩
  | .local _ .vmem, ⟨14, _⟩ => ⟨S1000x256, .f32⟩
  | .local _ .vmem, ⟨15, _⟩ => ⟨S1000x256, .f32⟩
  | .local _ .vmem, ⟨16, _⟩ => ⟨S1000x512, .f32⟩
  | .local _ .vmem, ⟨17, _⟩ => ⟨S1000x512, .f32⟩
  | .local _ .vmem, ⟨18, _⟩ => ⟨S256x512, .bf16⟩
  | .local _ .vmem, ⟨19, _⟩ => ⟨S512x512, .bf16⟩
  | .local _ .vmem, ⟨20, _⟩ => ⟨S512, .f32⟩
  | .local _ .vmem, ⟨21, _⟩ => ⟨S512x256, .bf16⟩
  | .local _ .vmem, ⟨22, _⟩ => ⟨S256, .f32⟩
  | .local _ .vmem, ⟨23, _⟩ => ⟨S1000x256, .f32⟩
  | .local _ .vmem, ⟨24, _⟩ => ⟨S1000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1600x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  slices_S576x512_S256x512_0_0 : S576x512.Slices ![0, 0] S256x512
  slices_S576x512_S256x512_256_0 : S576x512.Slices ![256, 0] S256x512
  slices_S576x512_S64x512_512_0 : S576x512.Slices ![512, 0] S64x512
  inb_S1600x256_S1600x256_0_0 : ∀ a, (![0, 0] : Fin 2 → Nat) a + S1600x256.size a ≤ S1600x256.size a
  h_S1600x256 : 0 < S1600x256.numel
  shapeCasts_S1600x256_S1600x256 : S1600x256.ShapeCasts S1600x256
  inb_S1600x64_S1600x64_0_0 : ∀ a, (![0, 0] : Fin 2 → Nat) a + S1600x64.size a ≤ S1600x64.size a
  h_S1600x64 : 0 < S1600x64.numel
  shapeCasts_S1600x64_S1600x64 : S1600x64.ShapeCasts S1600x64
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S512_S1x512 : S512.ShapeCasts S1x512
  broadcasts_S1x512_S1600x512 : S1x512.Broadcasts S1600x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1600x512_S1600x512_0_0 : ∀ a, (![0, 0] : Fin 2 → Nat) a + S1600x512.size a ≤ S1600x512.size a
  h_S1600x512 : 0 < S1600x512.numel
  bcast_S_S20000x512 : S_.BroadcastsInDim S20000x512 (![] : Fin 0 → Fin S20000x512.rank)
  slices_S768x512_S256x512_0_0 : S768x512.Slices ![0, 0] S256x512
  slices_S768x512_S512x512_256_0 : S768x512.Slices ![256, 0] S512x512
  inb_S1000x256_S1000x256_0_0 : ∀ a, (![0, 0] : Fin 2 → Nat) a + S1000x256.size a ≤ S1000x256.size a
  h_S1000x256 : 0 < S1000x256.numel
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  gather_S20000x256_S320000x1_S320000x256_1_0_n_n_0_1_1256_wf : GatherDims.WF S20000x256 S320000x1 S320000x256 [1] [0] [] [0] [] 1 ![1, 256]
  dot_S1600x256_S256x512_S1600x512_1_0_0_1_n_n_wf : DotDims.WF S1600x256 S256x512 S1600x512 [1] [0] [0] [1] [] []
  dot_S1600x64_S64x512_S1600x512_1_0_0_1_n_n_wf : DotDims.WF S1600x64 S64x512 S1600x512 [1] [0] [0] [1] [] []
  dot_S1600x512_S512x512_S1600x512_1_0_0_1_n_n_wf : DotDims.WF S1600x512 S512x512 S1600x512 [1] [0] [0] [1] [] []
  scatter_S20000x512_S320000x1_S320000x512_1_0_0_1_wf : ScatterDims.WF S20000x512 S320000x1 S320000x512 [1] [0] [0] 1
  dot_S1000x256_S256x512_S1000x512_1_0_0_1_n_n_wf : DotDims.WF S1000x256 S256x512 S1000x512 [1] [0] [0] [1] [] []
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x256.size a ≤ S320000x256.size a
  hwx0_0 : ∀ i : grid0.Coords, EltTy.bits .bf16 = 32 ∨ (Rect.block (s := S320000x256) S1600x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x256.size a ≤ S320000x256.size a
  hwx0_1 : ∀ i : grid0.Coords, EltTy.bits .bf16 = 32 ∨ (Rect.block (s := S320000x256) S1600x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x64.size a ≤ S320000x64.size a
  hwx0_2 : ∀ i : grid0.Coords, EltTy.bits .bf16 = 32 ∨ (Rect.block (s := S320000x64) S1600x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .bf16 = 32 ∨ (Rect.block (s := S64x512) S64x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1600x512.size a ≤ S320000x512.size a
  hwx0_9 : ∀ i : grid0.Coords, EltTy.bits .f32 = 32 ∨ (Rect.block (s := S320000x512) S1600x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S20000x256.size a
  hwx1_7 : ∀ i : grid1.Coords, EltTy.bits .f32 = 32 ∨ (Rect.block (s := S20000x256) S1000x256.size (cc1_transform_7 i) (hinb1_7 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S1600x256_S256x512_S1600x512_1_0_0_1_n_n : DotDims S1600x256 S256x512 S1600x512 where
  lhsContracting := [1]
  rhsContracting := [0]
  lhsNonContracting := [0]
  rhsNonContracting := [1]
  lhsBatch := []
  rhsBatch := []
  wf := dot_S1600x256_S256x512_S1600x512_1_0_0_1_n_n_wf
def dot_S1600x64_S64x512_S1600x512_1_0_0_1_n_n : DotDims S1600x64 S64x512 S1600x512 where
  lhsContracting := [1]
  rhsContracting := [0]
  lhsNonContracting := [0]
  rhsNonContracting := [1]
  lhsBatch := []
  rhsBatch := []
  wf := dot_S1600x64_S64x512_S1600x512_1_0_0_1_n_n_wf
def dot_S1600x512_S512x512_S1600x512_1_0_0_1_n_n : DotDims S1600x512 S512x512 S1600x512 where
  lhsContracting := [1]
  rhsContracting := [0]
  lhsNonContracting := [0]
  rhsNonContracting := [1]
  lhsBatch := []
  rhsBatch := []
  wf := dot_S1600x512_S512x512_S1600x512_1_0_0_1_n_n_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_v11) S1600x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1600x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1600x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1600x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000x64 : Shape := ⟨2, ![320000, 64]⟩
abbrev S576x512 : Shape := ⟨2, ![576, 512]⟩
abbrev S512 : Shape := ⟨1, ![512]⟩
abbrev S512x512 : Shape := ⟨2, ![512, 512]⟩
abbrev S768x512 : Shape := ⟨2, ![768, 512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x576 : Shape := ⟨2, ![320000, 576]⟩
abbrev S320000x512 : Shape := ⟨2, ![320000, 512]⟩
abbrev S1x512 : Shape := ⟨2, ![1, 512]⟩
abbrev S20000x512 : Shape := ⟨2, ![20000, 512]⟩
abbrev S20000x768 : Shape := ⟨2, ![20000, 768]⟩
abbrev S1x256 : Shape := ⟨2, ![1, 256]⟩

abbrev nBuf : Space → Nat
  | .hbm => 62
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000x64, .f32⟩
  | .hbm, ⟨3, _⟩ => ⟨S576x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S768x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x256, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S320000x576, .f32⟩
  | .hbm, ⟨34, _⟩ => ⟨S320000x512, .f32⟩
  | .hbm, ⟨35, _⟩ => ⟨S1x512, .f32⟩
  | .hbm, ⟨36, _⟩ => ⟨S320000x512, .f32⟩
  | .hbm, ⟨37, _⟩ => ⟨S320000x512, .f32⟩
  | .hbm, ⟨38, _⟩ => ⟨S_, .f32⟩
  | .hbm, ⟨39, _⟩ => ⟨S320000x512, .f32⟩
  | .hbm, ⟨40, _⟩ => ⟨S320000x512, .f32⟩
  | .hbm, ⟨41, _⟩ => ⟨S320000x512, .f32⟩
  | .hbm, ⟨42, _⟩ => ⟨S1x512, .f32⟩
  | .hbm, ⟨43, _⟩ => ⟨S320000x512, .f32⟩
  | .hbm, ⟨44, _⟩ => ⟨S320000x512, .f32⟩
  | .hbm, ⟨45, _⟩ => ⟨S_, .f32⟩
  | .hbm, ⟨46, _⟩ => ⟨S20000x512, .f32⟩
  | .hbm, ⟨47, _⟩ => ⟨S320000x1, .i32⟩
  | .hbm, ⟨48, _⟩ => ⟨S20000x512, .f32⟩
  | .hbm, ⟨49, _⟩ => ⟨S20000x768, .f32⟩
  | .hbm, ⟨50, _⟩ => ⟨S20000x512, .f32⟩
  | .hbm, ⟨51, _⟩ => ⟨S1x512, .f32⟩
  | .hbm, ⟨52, _⟩ => ⟨S20000x512, .f32⟩
  | .hbm, ⟨53, _⟩ => ⟨S20000x512, .f32⟩
  | .hbm, ⟨54, _⟩ => ⟨S_, .f32⟩
  | .hbm, ⟨55, _⟩ => ⟨S20000x512, .f32⟩
  | .hbm, ⟨56, _⟩ => ⟨S20000x512, .f32⟩
  | .hbm, ⟨57, _⟩ => ⟨S20000x256, .f32⟩
  | .hbm, ⟨58, _⟩ => ⟨S1x256, .f32⟩
  | .hbm, ⟨59, _⟩ => ⟨S20000x256, .f32⟩
  | .hbm, ⟨60, _⟩ => ⟨S20000x256, .f32⟩
  | .hbm, ⟨61, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x64_S320000x576_d1 : Shape.Concatenates [S320000x256, S320000x256, S320000x64] S320000x576 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S_S20000x512 : S_.BroadcastsInDim S20000x512 (![] : Fin 0 → Fin S20000x512.rank)
  concatenates_S20000x256_S20000x512_S20000x768_d1 : Shape.Concatenates [S20000x256, S20000x512] S20000x768 1
  bcast_S1x512_S20000x512_0_1 : S1x512.BroadcastsInDim S20000x512 (![0, 1] : Fin 2 → Fin S20000x512.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  dot_S320000x576_S576x512_S320000x512_1_0_0_1_n_n_wf : DotDims.WF S320000x576 S576x512 S320000x512 [1] [0] [0] [1] [] []
  dot_S320000x512_S512x512_S320000x512_1_0_0_1_n_n_wf : DotDims.WF S320000x512 S512x512 S320000x512 [1] [0] [0] [1] [] []
  scatter_S20000x512_S320000x1_S320000x512_1_0_0_1_wf : ScatterDims.WF S20000x512 S320000x1 S320000x512 [1] [0] [0] 1
  dot_S20000x768_S768x512_S20000x512_1_0_0_1_n_n_wf : DotDims.WF S20000x768 S768x512 S20000x512 [1] [0] [0] [1] [] []
  dot_S20000x512_S512x256_S20000x256_1_0_0_1_n_n_wf : DotDims.WF S20000x512 S512x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x576_S576x512_S320000x512_1_0_0_1_n_n : DotDims S320000x576 S576x512 S320000x512 where
  lhsContracting := [1]
  rhsContracting := [0]
  lhsNonContracting := [0]
  rhsNonContracting := [1]
  lhsBatch := []
  rhsBatch := []
  wf := dot_S320000x576_S576x512_S320000x512_1_0_0_1_n_n_wf
def dot_S320000x512_S512x512_S320000x512_1_0_0_1_n_n : DotDims S320000x512 S512x512 S320000x512 where
  lhsContracting := [1]
  rhsContracting := [0]
  lhsNonContracting := [0]
  rhsNonContracting := [1]
  lhsBatch := []
  rhsBatch := []
  wf := dot_S320000x512_S512x512_S320000x512_1_0_0_1_n_n_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x768_S768x512_S20000x512_1_0_0_1_n_n : DotDims S20000x768 S768x512 S20000x512 where
  lhsContracting := [1]
  rhsContracting := [0]
  lhsNonContracting := [0]
  rhsNonContracting := [1]
  lhsBatch := []
  rhsBatch := []
  wf := dot_S20000x768_S768x512_S20000x512_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.KernelRun.lean ====
/-
  The idealized kernel program's run, with its result named.

  Every weakly fair execution of the program terminates without a fault; the argument arrays end as launched,
  and the result array ends holding what the program's last boundary holds there: the contents of the node
  region's output array after all of its write-backs. The run is the library's theorem for a program of kernel
  regions among stretches of host operations, over this program's segments and per-region proof data; only the
  final reading differs from the frame statement: it reads the result array too.
-/
import proofs.«129480_j13915694039743_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, nothing faults, the result array ends at the last boundary's contents and every
    argument array ends as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Whole

end
-- ==== Proof.Layer.lean ====
/-
  One message-passing layer of a graph network, row by row, over the extended reals.

  An edge with source row `a`, target row `b` (each of 256 features) and its own 64 features `e` sends the message
  `relu(a·Ws + b·Wt + e·We + b1)·W2 + b2` (512 features): the first matrix product is over the concatenated row
  `[a, b, e]` of 576 features against ONE weight matrix whose rows 0–255, 256–511 and 512–575 are `Ws`, `Wt`, `We`,
  and a sum over the 576 columns is the sum of the sums over the three pieces (`sum_fin576`): addition of extended
  reals is associative and commutative, so no finiteness is needed. A node with features `x` (256) and aggregated
  messages `g` (512) becomes `x + (relu(x·Wn + g·Wa + b3)·W4 + b4)`, the same law splitting 768 = 256 + 512.
  The rectifier's threshold is the zero word of the 32-bit format, kept as that word.
-/
import Idealize.ShloMosaic.PureOps.Ideal
import Idealize.ShloMosaic.Lib.ValueIdx

noncomputable section

open scoped BigOperators

namespace Cert.Layer

open Idealize.ShloMosaic Idealize.ShloMosaic.ValueIdx

/-- The rectifier's threshold: the extended real the all-zero 32-bit word denotes. -/
abbrev thr : EReal := Ideal.ofBits .f32 0x00000000#32

/-- Row `r` of a matrix, as a function of the column. -/
def row {n d : Nat} (X : (⟨2, ![n, d]⟩ : Shape).Idx → EReal) (r : Fin n) : Fin d → EReal := fun l => X (ix2 r l)

/-- The `m` rows of a matrix that start at row `off`, as a matrix of their own. -/
def rowsFrom (off n : Nat) {m d : Nat} (h : off + m ≤ n) (W : (⟨2, ![n, d]⟩ : Shape).Idx → EReal) :
    (⟨2, ![m, d]⟩ : Shape).Idx → EReal :=
  fun i => W (ix2 (⟨off + (i 0).val, by have := idx2_lt0 i; omega⟩ : Fin n) (⟨(i 1).val, idx2_lt1 i⟩ : Fin d))

/-- The hidden activation `k` of an edge: the rectified sum of the three products and the bias. -/
def edgeHidden (a b : Fin 256 → EReal) (e : Fin 64 → EReal)
    (Ws Wt : (⟨2, ![256, 512]⟩ : Shape).Idx → EReal) (We : (⟨2, ![64, 512]⟩ : Shape).Idx → EReal)
    (b1 : (⟨1, ![512]⟩ : Shape).Idx → EReal) (k : Fin 512) : EReal :=
  max ((((∑ l : Fin 256, a l * Ws (ix2 l k)) + ∑ l : Fin 256, b l * Wt (ix2 l k))
      + ∑ l : Fin 64, e l * We (ix2 l k)) + b1 (ix1 k)) thr

/-- Feature `q` of the message an edge sends. -/
def edgeRow (a b : Fin 256 → EReal) (e : Fin 64 → EReal)
    (Ws Wt : (⟨2, ![256, 512]⟩ : Shape).Idx → EReal) (We : (⟨2, ![64, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (q : Fin 512) : EReal :=
  (∑ k : Fin 512, edgeHidden a b e Ws Wt We b1 k * W2 (ix2 k q)) + b2 (ix1 q)

/-- The hidden activation `k` of a node. -/
def nodeHidden (x : Fin 256 → EReal) (g : Fin 512 → EReal)
    (Wn : (⟨2, ![256, 512]⟩ : Shape).Idx → EReal) (Wa : (⟨2, ![512, 512]⟩ : Shape).Idx → EReal)
    (b3 : (⟨1, ![512]⟩ : Shape).Idx → EReal) (k : Fin 512) : EReal :=
  max (((∑ l : Fin 256, x l * Wn (ix2 l k)) + ∑ l : Fin 512, g l * Wa (ix2 l k)) + b3 (ix1 k)) thr

/-- Feature `q` of a node after the layer: its own feature plus the update. -/
def nodeRow (x : Fin 256 → EReal) (g : Fin 512 → EReal)
    (Wn : (⟨2, ![256, 512]⟩ : Shape).Idx → EReal) (Wa : (⟨2, ![512, 512]⟩ : Shape).Idx → EReal)
    (b3 : (⟨1, ![512]⟩ : Shape).Idx → EReal) (W4 : (⟨2, ![512, 256]⟩ : Shape).Idx → EReal)
    (b4 : (⟨1, ![256]⟩ : Shape).Idx → EReal) (q : Fin 256) : EReal :=
  x q + ((∑ k : Fin 512, nodeHidden x g Wn Wa b3 k * W4 (ix2 k q)) + b4 (ix1 q))

/-- All the messages: edge `j 0`'s feature `j 1`, from the gathered source and target rows and the edge features. -/
def edgeMsg (A B : (⟨2, ![320000, 256]⟩ : Shape).Idx → EReal) (E : (⟨2, ![320000, 64]⟩ : Shape).Idx → EReal)
    (Ws Wt : (⟨2, ![256, 512]⟩ : Shape).Idx → EReal) (We : (⟨2, ![64, 512]⟩ : Shape).Idx → EReal)
    (b1 : (⟨1, ![512]⟩ : Shape).Idx → EReal) (W2 : (⟨2, ![512, 512]⟩ : Shape).Idx → EReal)
    (b2 : (⟨1, ![512]⟩ : Shape).Idx → EReal) : (⟨2, ![320000, 512]⟩ : Shape).Idx → EReal :=
  fun j => edgeRow (row A (j 0)) (row B (j 0)) (row E (j 0)) Ws Wt We b1 W2 b2 (j 1)

/-- All the nodes after the layer, from their features and their aggregated messages. -/
def nodeOut (X : (⟨2, ![20000, 256]⟩ : Shape).Idx → EReal) (G : (⟨2, ![20000, 512]⟩ : Shape).Idx → EReal)
    (Wn : (⟨2, ![256, 512]⟩ : Shape).Idx → EReal) (Wa : (⟨2, ![512, 512]⟩ : Shape).Idx → EReal)
    (b3 : (⟨1, ![512]⟩ : Shape).Idx → EReal) (W4 : (⟨2, ![512, 256]⟩ : Shape).Idx → EReal)
    (b4 : (⟨1, ![256]⟩ : Shape).Idx → EReal) : (⟨2, ![20000, 256]⟩ : Shape).Idx → EReal :=
  fun j => nodeRow (row X (j 0)) (row G (j 0)) Wn Wa b3 W4 b4 (j 1)

/-- A sum over 576 = 256 + 256 + 64 consecutive indices is the sum of the sums over the three pieces. -/
theorem sum_fin576 {M : Type*} [AddCommMonoid M] (f : Fin 576 → M) :
    ∑ k : Fin 576, f k
      = ((∑ l : Fin 256, f ⟨l.val, by have := l.isLt; omega⟩) + ∑ l : Fin 256, f ⟨256 + l.val, by have := l.isLt; omega⟩)
        + ∑ l : Fin 64, f ⟨512 + l.val, by have := l.isLt; omega⟩ := by
  have h1 : ∑ k : Fin 576, f k
      = (∑ l : Fin 512, f ⟨l.val, by have := l.isLt; omega⟩) + ∑ l : Fin 64, f ⟨512 + l.val, by have := l.isLt; omega⟩ :=
    Fin.sum_univ_add (a := 512) (b := 64) f
  have h2 : (∑ l : Fin 512, f ⟨l.val, by have := l.isLt; omega⟩)
      = (∑ l : Fin 256, f ⟨l.val, by have := l.isLt; omega⟩) + ∑ l : Fin 256, f ⟨256 + l.val, by have := l.isLt; omega⟩ :=
    Fin.sum_univ_add (a := 256) (b := 256) (fun l : Fin 512 => f ⟨l.val, by have := l.isLt; omega⟩)
  rw [h1, h2]

/-- A sum over 768 = 256 + 512 consecutive indices is the sum of the sums over the two pieces. -/
theorem sum_fin768 {M : Type*} [AddCommMonoid M] (f : Fin 768 → M) :
    ∑ k : Fin 768, f k
      = (∑ l : Fin 256, f ⟨l.val, by have := l.isLt; omega⟩) + ∑ l : Fin 512, f ⟨256 + l.val, by have := l.isLt; omega⟩ :=
  Fin.sum_univ_add (a := 256) (b := 512) f

end Cert.Layer

end
-- ==== Proof.EdgeBody.lean ====
import proofs.«129480_j13915694039743_1_alg».proof.Proof.Gen.KernelIdeal.Skeleton
import proofs.«129480_j13915694039743_1_alg».proof.Proof.Layer
import Idealize.ShloMosaic.Lib.ValueIdx
import Idealize.ShloMosaic.Lib.Pipeline.Value
import Idealize.ShloMosaic.Lib.ValueLayout
import Idealize.ShloMosaic.PureOps.Ideal.Laws

/-
  The edge block's stored value, read at one element, is the layer's message row.

  The stored value is one pure term of the nine loaded blocks: three matrix products into a zero accumulator, added,
  plus a bias row repeated down the rows, the maximum with the zero threshold, a fourth matrix product and a second
  bias row. Over the extended reals a matrix product into the zero accumulator is, element by element, the sum over
  the contracted axis of the products of the two operands' entries; a change of format is the identity; a repeated
  row reads the row's entry. So the element `(p, q)` is the message feature `q` computed from row `p` of each of the
  three input blocks, with the additions grouped exactly as the layer writes them.
-/

noncomputable section

open scoped BigOperators

namespace Cert.Bodies

open Idealize.ShloMosaic Idealize.ShloMosaic.ValueIdx Cert.KernelIdeal Cert.KernelIdeal.Gen

theorem mm_1600_256_512_lhs0 (i : S1600x512.Idx) (q : dot_S1600x256_S256x512_S1600x512_1_0_0_1_n_n.contr.Idx) : (dot_S1600x256_S256x512_S1600x512_1_0_0_1_n_n.lhsIdx i q 0).val = (i 0).val := by
  unfold DotDims.lhsIdx
  rw [dif_neg (show ¬(0 : Fin S1600x256.rank) ∈ dot_S1600x256_S256x512_S1600x512_1_0_0_1_n_n.lhsBatch by decide),
    dif_pos (show (0 : Fin S1600x256.rank) ∈ dot_S1600x256_S256x512_S1600x512_1_0_0_1_n_n.lhsNonContracting by decide)]
  rfl

theorem mm_1600_256_512_rhs1 (i : S1600x512.Idx) (q : dot_S1600x256_S256x512_S1600x512_1_0_0_1_n_n.contr.Idx) : (dot_S1600x256_S256x512_S1600x512_1_0_0_1_n_n.rhsIdx i q 1).val = (i 1).val := by
  unfold DotDims.rhsIdx
  rw [dif_neg (show ¬(1 : Fin S256x512.rank) ∈ dot_S1600x256_S256x512_S1600x512_1_0_0_1_n_n.rhsBatch by decide),
    dif_pos (show (1 : Fin S256x512.rank) ∈ dot_S1600x256_S256x512_S1600x512_1_0_0_1_n_n.rhsNonContracting by decide)]
  rfl

/-- The product of an `1600 × 256` block with a `256 × 512` block into the zero accumulator, read at `(p, k)`:
    the sum over the 256 contracted columns. -/
theorem mm_1600_256_512 (a : FVec Ideal S1600x256 .bf16) (w : FVec Ideal S256x512 .bf16) (p : Fin 1600) (k : Fin 512) :
    matmul dot_S1600x256_S256x512_S1600x512_1_0_0_1_n_n none a w (constant (F := Ideal) S1600x512 .f32 0x00000000#32) (ix2 p k)
      = ∑ l : Fin 256, a (ix2 p l) * w (ix2 l k) := by
  refine (Ideal.matmul_constant_zero_apply dot_S1600x256_S256x512_S1600x512_1_0_0_1_n_n none a w (ix2 p k)).trans ?_
  rw [← Equiv.sum_comp (contrEquiv1 dot_S1600x256_S256x512_S1600x512_1_0_0_1_n_n 256 rfl rfl).symm]
  refine Finset.sum_congr rfl fun l _ => ?_
  have hl := contrEquiv1_symm_val dot_S1600x256_S256x512_S1600x512_1_0_0_1_n_n 256 rfl rfl l
  have el : dot_S1600x256_S256x512_S1600x512_1_0_0_1_n_n.lhsIdx (ix2 p k) ((contrEquiv1 dot_S1600x256_S256x512_S1600x512_1_0_0_1_n_n 256 rfl rfl).symm l) = ix2 p l :=
    funext fun ax => Fin.ext (by
      match ax with
      | ⟨0, _⟩ => exact mm_1600_256_512_lhs0 _ _
      | ⟨1, _⟩ => exact (dot_S1600x256_S256x512_S1600x512_1_0_0_1_n_n.lhsIdx_val_of_single rfl _ _).trans hl)
  have er : dot_S1600x256_S256x512_S1600x512_1_0_0_1_n_n.rhsIdx (ix2 p k) ((contrEquiv1 dot_S1600x256_S256x512_S1600x512_1_0_0_1_n_n 256 rfl rfl).symm l) = ix2 l k :=
    funext fun ax => Fin.ext (by
      match ax with
      | ⟨0, _⟩ => exact (dot_S1600x256_S256x512_S1600x512_1_0_0_1_n_n.rhsIdx_val_of_single rfl _ _).trans hl
      | ⟨1, _⟩ => exact mm_1600_256_512_rhs1 _ _)
  rw [el, er]

theorem mm_1600_64_512_lhs0 (i : S1600x512.Idx) (q : dot_S1600x64_S64x512_S1600x512_1_0_0_1_n_n.contr.Idx) : (dot_S1600x64_S64x512_S1600x512_1_0_0_1_n_n.lhsIdx i q 0).val = (i 0).val := by
  unfold DotDims.lhsIdx
  rw [dif_neg (show ¬(0 : Fin S1600x64.rank) ∈ dot_S1600x64_S64x512_S1600x512_1_0_0_1_n_n.lhsBatch by decide),
    dif_pos (show (0 : Fin S1600x64.rank) ∈ dot_S1600x64_S64x512_S1600x512_1_0_0_1_n_n.lhsNonContracting by decide)]
  rfl

theorem mm_1600_64_512_rhs1 (i : S1600x512.Idx) (q : dot_S1600x64_S64x512_S1600x512_1_0_0_1_n_n.contr.Idx) : (dot_S1600x64_S64x512_S1600x512_1_0_0_1_n_n.rhsIdx i q 1).val = (i 1).val := by
  unfold DotDims.rhsIdx
  rw [dif_neg (show ¬(1 : Fin S64x512.rank) ∈ dot_S1600x64_S64x512_S1600x512_1_0_0_1_n_n.rhsBatch by decide),
    dif_pos (show (1 : Fin S64x512.rank) ∈ dot_S1600x64_S64x512_S1600x512_1_0_0_1_n_n.rhsNonContracting by decide)]
  rfl

/-- The product of an `1600 × 64` block with a `64 × 512` block into the zero accumulator, read at `(p, k)`:
    the sum over the 64 contracted columns. -/
theorem mm_1600_64_512 (a : FVec Ideal S1600x64 .bf16) (w : FVec Ideal S64x512 .bf16) (p : Fin 1600) (k : Fin 512) :
    matmul dot_S1600x64_S64x512_S1600x512_1_0_0_1_n_n none a w (constant (F := Ideal) S1600x512 .f32 0x00000000#32) (ix2 p k)
      = ∑ l : Fin 64, a (ix2 p l) * w (ix2 l k) := by
  refine (Ideal.matmul_constant_zero_apply dot_S1600x64_S64x512_S1600x512_1_0_0_1_n_n none a w (ix2 p k)).trans ?_
  rw [← Equiv.sum_comp (contrEquiv1 dot_S1600x64_S64x512_S1600x512_1_0_0_1_n_n 64 rfl rfl).symm]
  refine Finset.sum_congr rfl fun l _ => ?_
  have hl := contrEquiv1_symm_val dot_S1600x64_S64x512_S1600x512_1_0_0_1_n_n 64 rfl rfl l
  have el : dot_S1600x64_S64x512_S1600x512_1_0_0_1_n_n.lhsIdx (ix2 p k) ((contrEquiv1 dot_S1600x64_S64x512_S1600x512_1_0_0_1_n_n 64 rfl rfl).symm l) = ix2 p l :=
    funext fun ax => Fin.ext (by
      match ax with
      | ⟨0, _⟩ => exact mm_1600_64_512_lhs0 _ _
      | ⟨1, _⟩ => exact (dot_S1600x64_S64x512_S1600x512_1_0_0_1_n_n.lhsIdx_val_of_single rfl _ _).trans hl)
  have er : dot_S1600x64_S64x512_S1600x512_1_0_0_1_n_n.rhsIdx (ix2 p k) ((contrEquiv1 dot_S1600x64_S64x512_S1600x512_1_0_0_1_n_n 64 rfl rfl).symm l) = ix2 l k :=
    funext fun ax => Fin.ext (by
      match ax with
      | ⟨0, _⟩ => exact (dot_S1600x64_S64x512_S1600x512_1_0_0_1_n_n.rhsIdx_val_of_single rfl _ _).trans hl
      | ⟨1, _⟩ => exact mm_1600_64_512_rhs1 _ _)
  rw [el, er]

theorem mm_1600_512_512_lhs0 (i : S1600x512.Idx) (q : dot_S1600x512_S512x512_S1600x512_1_0_0_1_n_n.contr.Idx) : (dot_S1600x512_S512x512_S1600x512_1_0_0_1_n_n.lhsIdx i q 0).val = (i 0).val := by
  unfold DotDims.lhsIdx
  rw [dif_neg (show ¬(0 : Fin S1600x512.rank) ∈ dot_S1600x512_S512x512_S1600x512_1_0_0_1_n_n.lhsBatch by decide),
    dif_pos (show (0 : Fin S1600x512.rank) ∈ dot_S1600x512_S512x512_S1600x512_1_0_0_1_n_n.lhsNonContracting by decide)]
  rfl

theorem mm_1600_512_512_rhs1 (i : S1600x512.Idx) (q : dot_S1600x512_S512x512_S1600x512_1_0_0_1_n_n.contr.Idx) : (dot_S1600x512_S512x512_S1600x512_1_0_0_1_n_n.rhsIdx i q 1).val = (i 1).val := by
  unfold DotDims.rhsIdx
  rw [dif_neg (show ¬(1 : Fin S512x512.rank) ∈ dot_S1600x512_S512x512_S1600x512_1_0_0_1_n_n.rhsBatch by decide),
    dif_pos (show (1 : Fin S512x512.rank) ∈ dot_S1600x512_S512x512_S1600x512_1_0_0_1_n_n.rhsNonContracting by decide)]
  rfl

/-- The product of an `1600 × 512` block with a `512 × 512` block into the zero accumulator, read at `(p, k)`:
    the sum over the 512 contracted columns. -/
theorem mm_1600_512_512 (a : FVec Ideal S1600x512 .bf16) (w : FVec Ideal S512x512 .bf16) (p : Fin 1600) (k : Fin 512) :
    matmul dot_S1600x512_S512x512_S1600x512_1_0_0_1_n_n none a w (constant (F := Ideal) S1600x512 .f32 0x00000000#32) (ix2 p k)
      = ∑ l : Fin 512, a (ix2 p l) * w (ix2 l k) := by
  refine (Ideal.matmul_constant_zero_apply dot_S1600x512_S512x512_S1600x512_1_0_0_1_n_n none a w (ix2 p k)).trans ?_
  rw [← Equiv.sum_comp (contrEquiv1 dot_S1600x512_S512x512_S1600x512_1_0_0_1_n_n 512 rfl rfl).symm]
  refine Finset.sum_congr rfl fun l _ => ?_
  have hl := contrEquiv1_symm_val dot_S1600x512_S512x512_S1600x512_1_0_0_1_n_n 512 rfl rfl l
  have el : dot_S1600x512_S512x512_S1600x512_1_0_0_1_n_n.lhsIdx (ix2 p k) ((contrEquiv1 dot_S1600x512_S512x512_S1600x512_1_0_0_1_n_n 512 rfl rfl).symm l) = ix2 p l :=
    funext fun ax => Fin.ext (by
      match ax with
      | ⟨0, _⟩ => exact mm_1600_512_512_lhs0 _ _
      | ⟨1, _⟩ => exact (dot_S1600x512_S512x512_S1600x512_1_0_0_1_n_n.lhsIdx_val_of_single rfl _ _).trans hl)
  have er : dot_S1600x512_S512x512_S1600x512_1_0_0_1_n_n.rhsIdx (ix2 p k) ((contrEquiv1 dot_S1600x512_S512x512_S1600x512_1_0_0_1_n_n 512 rfl rfl).symm l) = ix2 l k :=
    funext fun ax => Fin.ext (by
      match ax with
      | ⟨0, _⟩ => exact (dot_S1600x512_S512x512_S1600x512_1_0_0_1_n_n.rhsIdx_val_of_single rfl _ _).trans hl
      | ⟨1, _⟩ => exact mm_1600_512_512_rhs1 _ _)
  rw [el, er]

/-- A bias row of 512 entries, given a unit leading axis and repeated down 1600 rows, read at `(p, k)`: its entry `k`. -/
theorem bias_1600_512 (v : FVec Ideal S512 .f32) (h1 : S512.ShapeCasts S1x512) (h2 : S1x512.Broadcasts S1600x512)
    (p : Fin 1600) (k : Fin 512) :
    broadcastTo S1600x512 (shapeCast S1x512 v h1) h2 (ix2 p k) = v (ix1 k) :=
  (broadcastTo_1b_ab_apply _ h2 p k).trans (shapeCast_a_1a_apply v h1 0 k)

/-- Element `(p, q)` of the edge block's stored value is feature `q` of the message computed from row `p` of the
    gathered source rows, of the gathered target rows and of the edge features. -/
theorem edge_pay_apply (x0 x1 : Vec Ideal S1600x256 .bf16) (x2 : Vec Ideal S1600x64 .bf16) (x3 x4 : Vec Ideal S256x512 .bf16)
    (x5 : Vec Ideal S64x512 .bf16) (x6 : Vec Ideal S512 .f32) (x7 : Vec Ideal S512x512 .bf16) (x8 : Vec Ideal S512 .f32)
    (p : Fin 1600) (q : Fin 512) :
    Cert.KernelIdeal.Gen.k0_pay1 (F := Ideal) x0 x1 x2 x3 x4 x5 x6 x7 x8 (ix2 p q)
      = Cert.Layer.edgeRow (Cert.Layer.row x0 p) (Cert.Layer.row x1 p) (Cert.Layer.row x2 p) x3 x4 x5 x6 x7 x8 q := by
  unfold Cert.KernelIdeal.Gen.k0_pay1
  simp only [shapeCast_self, addf_apply, maximumf_apply, truncf_apply, broadcast_apply, mm_1600_256_512, mm_1600_64_512,
    mm_1600_512_512, bias_1600_512]
  rfl

end Cert.Bodies

end
-- ==== Proof.EdgeRegion.lean ====
/-
  The edge region: after all of its write-backs the message array holds the layer's messages.

  The region runs the edge body once per block of 1600 edges, 200 blocks in all. At block `t` the three row-blocked
  inputs (gathered source rows, gathered target rows, edge features) are rows `1600 t … 1600 t + 1599` of their
  arrays, the weights and biases are their whole arrays, and what is written back is block `t` of the message array.
  The body's stored value at `(p, q)` is the message feature `q` of row `p` of those blocks, so block `t` written
  back is block `t` of ONE whole-array function — the layer's messages of the arrays as the region finds them —
  and since the 200 blocks tile the array (row `r` is in block `r / 1600`) the array ends holding that function.
-/
import proofs.«129480_j13915694039743_1_alg».proof.Proof.Gen.KernelIdeal.Frame
import proofs.«129480_j13915694039743_1_alg».proof.Proof.Layer
import proofs.«129480_j13915694039743_1_alg».proof.Proof.EdgeBody
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeRegion

open Cert.KernelIdeal Cert.KernelIdeal.Gen Cert.Layer

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three gathered inputs and the output move one block of 1600 rows per
    point; the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem t_lt (t : Fin cfg0.N) : t.val < 200 := lt_of_lt_of_eq t.isLt N_0

/-- Edge `1600 t + p`: row `p` of the block that point `t` works on. -/
def erow (t : Fin cfg0.N) (p : Fin 1600) : Fin 320000 := ⟨1600 * t.val + p.val, by have := t_lt t; have := p.isLt; omega⟩

theorem iblk0_0_apply (c : Dev nD) (t : Fin cfg0.N) (p : Fin 1600) (l : Fin 256) :
    (iblk0 V c 0 t : Vec Ideal S1600x256 .bf16) (ix2 p l) = (V c main_v11 : S320000x256.Idx → EReal) (ix2 (erow t p) l) := by
  unfold iblk0
  rw [View.read_apply]
  show V c main_v11 _ = V c main_v11 _
  congr 1
  funext a; apply Fin.ext
  match a with
  | ⟨0, _⟩ => show win0_0.index t (0 : Fin 2) * 1600 + 1 * p.val = 1600 * t.val + p.val; rw [(idx_facts t).1]; omega
  | ⟨1, _⟩ => show win0_0.index t (1 : Fin 2) * 256 + 1 * l.val = l.val; rw [(idx_facts t).2.1]; omega

theorem iblk0_1_apply (c : Dev nD) (t : Fin cfg0.N) (p : Fin 1600) (l : Fin 256) :
    (iblk0 V c 1 t : Vec Ideal S1600x256 .bf16) (ix2 p l) = (V c main_v18 : S320000x256.Idx → EReal) (ix2 (erow t p) l) := by
  unfold iblk0
  rw [View.read_apply]
  show V c main_v18 _ = V c main_v18 _
  congr 1
  funext a; apply Fin.ext
  match a with
  | ⟨0, _⟩ => show win0_1.index t (0 : Fin 2) * 1600 + 1 * p.val = 1600 * t.val + p.val; rw [(idx_facts t).2.2.1]; omega
  | ⟨1, _⟩ => show win0_1.index t (1 : Fin 2) * 256 + 1 * l.val = l.val; rw [(idx_facts t).2.2.2.1]; omega

theorem iblk0_2_apply (c : Dev nD) (t : Fin cfg0.N) (p : Fin 1600) (l : Fin 64) :
    (iblk0 V c 2 t : Vec Ideal S1600x64 .bf16) (ix2 p l) = (V c main_v19 : S320000x64.Idx → EReal) (ix2 (erow t p) l) := by
  unfold iblk0
  rw [View.read_apply]
  show V c main_v19 _ = V c main_v19 _
  congr 1
  funext a; apply Fin.ext
  match a with
  | ⟨0, _⟩ => show win0_2.index t (0 : Fin 2) * 1600 + 1 * p.val = 1600 * t.val + p.val; rw [(idx_facts t).2.2.2.2.1]; omega
  | ⟨1, _⟩ => show win0_2.index t (1 : Fin 2) * 64 + 1 * l.val = l.val; rw [(idx_facts t).2.2.2.2.2.1]; omega

theorem iblk0_3_eq (c : Dev nD) (t : Fin cfg0.N) :
    (iblk0 V c 3 t : Vec Ideal S256x512 .bf16) = (V c main_v21 : S256x512.Idx → EReal) := by
  funext y
  unfold iblk0
  rw [View.read_apply]
  show V c main_v21 _ = V c main_v21 y
  congr 1
  funext a; apply Fin.ext
  obtain ⟨-, -, -, -, -, -, e0, e1, -⟩ := idx_facts t
  match a with
  | ⟨0, _⟩ => show win0_3.index t (0 : Fin 2) * 256 + 1 * (y 0).val = (y 0).val; rw [e0]; omega
  | ⟨1, _⟩ => show win0_3.index t (1 : Fin 2) * 512 + 1 * (y 1).val = (y 1).val; rw [e1]; omega

theorem iblk0_4_eq (c : Dev nD) (t : Fin cfg0.N) :
    (iblk0 V c 4 t : Vec Ideal S256x512 .bf16) = (V c main_v23 : S256x512.Idx → EReal) := by
  funext y
  unfold iblk0
  rw [View.read_apply]
  show V c main_v23 _ = V c main_v23 y
  congr 1
  funext a; apply Fin.ext
  have e0 := (idx_facts t).2.2.2.2.2.2.2.2.1
  have e1 := (idx_facts t).2.2.2.2.2.2.2.2.2.1
  match a with
  | ⟨0, _⟩ => show win0_4.index t (0 : Fin 2) * 256 + 1 * (y 0).val = (y 0).val; rw [e0]; omega
  | ⟨1, _⟩ => show win0_4.index t (1 : Fin 2) * 512 + 1 * (y 1).val = (y 1).val; rw [e1]; omega

theorem iblk0_5_eq (c : Dev nD) (t : Fin cfg0.N) :
    (iblk0 V c 5 t : Vec Ideal S64x512 .bf16) = (V c main_v25 : S64x512.Idx → EReal) := by
  funext y
  unfold iblk0
  rw [View.read_apply]
  show V c main_v25 _ = V c main_v25 y
  congr 1
  funext a; apply Fin.ext
  have e0 := (idx_facts t).2.2.2.2.2.2.2.2.2.2.1
  have e1 := (idx_facts t).2.2.2.2.2.2.2.2.2.2.2.1
  match a with
  | ⟨0, _⟩ => show win0_5.index t (0 : Fin 2) * 64 + 1 * (y 0).val = (y 0).val; rw [e0]; omega
  | ⟨1, _⟩ => show win0_5.index t (1 : Fin 2) * 512 + 1 * (y 1).val = (y 1).val; rw [e1]; omega

theorem iblk0_6_eq (c : Dev nD) (t : Fin cfg0.N) :
    (iblk0 V c 6 t : Vec Ideal S512 .f32) = (V c main_arg4 : S512.Idx → EReal) := by
  funext y
  unfold iblk0
  rw [View.read_apply]
  show V c main_arg4 _ = V c main_arg4 y
  congr 1
  funext a; apply Fin.ext
  have e0 := (idx_facts t).2.2.2.2.2.2.2.2.2.2.2.2.1
  match a with
  | ⟨0, _⟩ => show win0_6.index t (0 : Fin 1) * 512 + 1 * (y 0).val = (y 0).val; rw [e0]; omega

theorem iblk0_7_eq (c : Dev nD) (t : Fin cfg0.N) :
    (iblk0 V c 7 t : Vec Ideal S512x512 .bf16) = (V c main_v26 : S512x512.Idx → EReal) := by
  funext y
  unfold iblk0
  rw [View.read_apply]
  show V c main_v26 _ = V c main_v26 y
  congr 1
  funext a; apply Fin.ext
  have e0 := (idx_facts t).2.2.2.2.2.2.2.2.2.2.2.2.2.1
  have e1 := (idx_facts t).2.2.2.2.2.2.2.2.2.2.2.2.2.2.1
  match a with
  | ⟨0, _⟩ => show win0_7.index t (0 : Fin 2) * 512 + 1 * (y 0).val = (y 0).val; rw [e0]; omega
  | ⟨1, _⟩ => show win0_7.index t (1 : Fin 2) * 512 + 1 * (y 1).val = (y 1).val; rw [e1]; omega

theorem iblk0_8_eq (c : Dev nD) (t : Fin cfg0.N) :
    (iblk0 V c 8 t : Vec Ideal S512 .f32) = (V c main_arg6 : S512.Idx → EReal) := by
  funext y
  unfold iblk0
  rw [View.read_apply]
  show V c main_arg6 _ = V c main_arg6 y
  congr 1
  funext a; apply Fin.ext
  have e0 := (idx_facts t).2.2.2.2.2.2.2.2.2.2.2.2.2.2.2.1
  match a with
  | ⟨0, _⟩ => show win0_8.index t (0 : Fin 1) * 512 + 1 * (y 0).val = (y 0).val; rw [e0]; omega

/-- Element `(p, q)` of the output block at point `t` is element `(1600 t + p, q)` of the message array. -/
theorem emb9 (t : Fin cfg0.N) (p : Fin 1600) (q : Fin 512) :
    ((cfg0.win 9).blk t).view.emb (ix2 p q : S1600x512.Idx) = (ix2 (erow t p) q : S320000x512.Idx) := by
  funext a; apply Fin.ext
  have e0 := (idx_facts t).2.2.2.2.2.2.2.2.2.2.2.2.2.2.2.2.1
  have e1 := (idx_facts t).2.2.2.2.2.2.2.2.2.2.2.2.2.2.2.2.2
  match a with
  | ⟨0, _⟩ => show win0_9.index t (0 : Fin 2) * 1600 + 1 * p.val = 1600 * t.val + p.val; rw [e0]; omega
  | ⟨1, _⟩ => show win0_9.index t (1 : Fin 2) * 512 + 1 * q.val = q.val; rw [e1]; omega

/-- What point `t` writes back is block `t` of the messages computed from the arrays as the region finds them. -/
theorem flushed_eq (c : Dev nD) (t : Fin cfg0.N) :
    (dat0 V c).flushed 9 t = ((cfg0.win 9).blk t).view.read (Elt Ideal)
      (edgeMsg (V c main_v11) (V c main_v18) (V c main_v19) (V c main_v21) (V c main_v23) (V c main_v25) (V c main_arg4) (V c main_v26) (V c main_arg6)) := by
  show (cfg0.win 9).cut (grid0.coords t) ((dat0 V c).after 9 t) = _
  rw [after0_9]
  unfold out0_9
  rw [View.canon_unit_zero hz2]
  simp only [View.ld_unit_zero (S := S1600x256) hz2, View.ld_unit_zero (S := S1600x64) hz2, View.ld_unit_zero (S := S256x512) hz2,
    View.ld_unit_zero (S := S64x512) hz2, View.ld_unit_zero (S := S512) hz1, View.ld_unit_zero (S := S512x512) hz2]
  refine funext fun (j : S1600x512.Idx) => ?_
  obtain ⟨p, q, rfl⟩ : ∃ (p : Fin 1600) (q : Fin 512), j = ix2 p q := ⟨j 0, j 1, eq_ix2 j⟩
  rw [View.read_apply, emb9 t p q]
  refine (Cert.Bodies.edge_pay_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  have hA : row (iblk0 V c 0 t : Vec Ideal S1600x256 .bf16) p = row (V c main_v11 : S320000x256.Idx → EReal) (erow t p) :=
    funext fun l => iblk0_0_apply V c t p l
  have hB : row (iblk0 V c 1 t : Vec Ideal S1600x256 .bf16) p = row (V c main_v18 : S320000x256.Idx → EReal) (erow t p) :=
    funext fun l => iblk0_1_apply V c t p l
  have hE : row (iblk0 V c 2 t : Vec Ideal S1600x64 .bf16) p = row (V c main_v19 : S320000x64.Idx → EReal) (erow t p) :=
    funext fun l => iblk0_2_apply V c t p l
  rw [hA, hB, hE, iblk0_3_eq V c t, iblk0_4_eq V c t, iblk0_5_eq V c t, iblk0_6_eq V c t, iblk0_7_eq V c t, iblk0_8_eq V c t]
  rfl

/-- An index of the message array is in point `t`'s block iff each coordinate is in the block's range on its axis. -/
theorem mem_blk (t : Fin cfg0.N) (i : S320000x512.Idx) :
    i ∈ ((cfg0.win 9).blk t).view.set ↔ ∀ a : Fin 2, win0_9.index t a * S1600x512.size a ≤ (i a).val ∧ (i a).val < win0_9.index t a * S1600x512.size a + S1600x512.size a := by
  show i ∈ ((View.whole main_v27).slice (win0_9.rect t)).set ↔ _
  rw [View.set_slice_whole, Rect.mem_set_unit]
  exact Iff.rfl

/-- Every element of the message array is in the block of the point `row / 1600`, which writes back. -/
theorem cover (i : S320000x512.Idx) : ∃ t : Fin cfg0.N, (cfg0.win 9).flush t = true ∧ i ∈ ((cfg0.win 9).blk t).view.set := by
  have hi0 : (i 0).val < 320000 := (i 0).isLt
  have hi1 : (i 1).val < 512 := (i 1).isLt
  have hN : cfg0.N = 200 := N_0
  refine ⟨⟨(i 0).val / 1600, by rw [hN]; omega⟩, flush0_9 _, ?_⟩
  rw [mem_blk]
  have e0 := (idx_facts ⟨(i 0).val / 1600, by rw [hN]; omega⟩).2.2.2.2.2.2.2.2.2.2.2.2.2.2.2.2.1
  have e1 := (idx_facts ⟨(i 0).val / 1600, by rw [hN]; omega⟩).2.2.2.2.2.2.2.2.2.2.2.2.2.2.2.2.2
  intro a
  match a with
  | ⟨0, _⟩ =>
    show win0_9.index ⟨(i 0).val / 1600, _⟩ (0 : Fin 2) * 1600 ≤ (i 0).val ∧ (i 0).val < win0_9.index ⟨(i 0).val / 1600, _⟩ (0 : Fin 2) * 1600 + 1600
    rw [e0]; show (i 0).val / 1600 * 1600 ≤ (i 0).val ∧ (i 0).val < (i 0).val / 1600 * 1600 + 1600; omega
  | ⟨1, _⟩ =>
    show win0_9.index ⟨(i 0).val / 1600, _⟩ (1 : Fin 2) * 512 ≤ (i 1).val ∧ (i 1).val < win0_9.index ⟨(i 0).val / 1600, _⟩ (1 : Fin 2) * 512 + 512
    rw [e1]; omega

/-- After the edge region the message array holds the layer's messages of the arrays the region was entered with. -/
theorem final (c : Dev nD) :
    (dat0 V c).arrAt 9 cfg0.N
      = edgeMsg (V c main_v11) (V c main_v18) (V c main_v19) (V c main_v21) (V c main_v23) (V c main_v25) (V c main_arg4) (V c main_v26) (V c main_arg6) :=
  (dat0 V c).arrAt_eq_of_cover 9 _ (fun t _ => flushed_eq V c t) cover

end Cert.KernelIdeal.EdgeRegion

end
-- ==== Proof.NodeBody.lean ====
import proofs.«129480_j13915694039743_1_alg».proof.Proof.Gen.KernelIdeal.Skeleton
import proofs.«129480_j13915694039743_1_alg».proof.Proof.Layer
import Idealize.ShloMosaic.Lib.ValueIdx
import Idealize.ShloMosaic.Lib.Pipeline.Value
import Idealize.ShloMosaic.Lib.ValueLayout
import Idealize.ShloMosaic.PureOps.Ideal.Laws

/-
  The node block's stored value, read at one element, is the layer's node row.

  The stored value is one pure term of the seven loaded blocks: the node features and the aggregated messages change
  format (the identity over the extended reals), two matrix products into a zero accumulator are added, a bias row
  repeated down the rows is added, the maximum with the zero threshold is taken, a third matrix product and a second
  bias row follow, and the node's own features are added to the result. A matrix product into the zero accumulator
  is, element by element, the sum over the contracted axis of the products of the two operands' entries. So the
  element `(p, q)` is feature `q` of the updated node computed from row `p` of the features and of the aggregated
  messages, with the additions grouped exactly as the layer writes them.
-/

noncomputable section

open scoped BigOperators

namespace Cert.Bodies

open Idealize.ShloMosaic Idealize.ShloMosaic.ValueIdx Cert.KernelIdeal Cert.KernelIdeal.Gen

theorem mm_1000_256_512_lhs0 (i : S1000x512.Idx) (q : dot_S1000x256_S256x512_S1000x512_1_0_0_1_n_n.contr.Idx) : (dot_S1000x256_S256x512_S1000x512_1_0_0_1_n_n.lhsIdx i q 0).val = (i 0).val := by
  unfold DotDims.lhsIdx
  rw [dif_neg (show ¬(0 : Fin S1000x256.rank) ∈ dot_S1000x256_S256x512_S1000x512_1_0_0_1_n_n.lhsBatch by decide),
    dif_pos (show (0 : Fin S1000x256.rank) ∈ dot_S1000x256_S256x512_S1000x512_1_0_0_1_n_n.lhsNonContracting by decide)]
  rfl

theorem mm_1000_256_512_rhs1 (i : S1000x512.Idx) (q : dot_S1000x256_S256x512_S1000x512_1_0_0_1_n_n.contr.Idx) : (dot_S1000x256_S256x512_S1000x512_1_0_0_1_n_n.rhsIdx i q 1).val = (i 1).val := by
  unfold DotDims.rhsIdx
  rw [dif_neg (show ¬(1 : Fin S256x512.rank) ∈ dot_S1000x256_S256x512_S1000x512_1_0_0_1_n_n.rhsBatch by decide),
    dif_pos (show (1 : Fin S256x512.rank) ∈ dot_S1000x256_S256x512_S1000x512_1_0_0_1_n_n.rhsNonContracting by decide)]
  rfl

/-- The product of an `1000 × 256` block with a `256 × 512` block into the zero accumulator, read at `(p, k)`:
    the sum over the 256 contracted columns. -/
theorem mm_1000_256_512 (a : FVec Ideal S1000x256 .bf16) (w : FVec Ideal S256x512 .bf16) (p : Fin 1000) (k : Fin 512) :
    matmul dot_S1000x256_S256x512_S1000x512_1_0_0_1_n_n none a w (constant (F := Ideal) S1000x512 .f32 0x00000000#32) (ix2 p k)
      = ∑ l : Fin 256, a (ix2 p l) * w (ix2 l k) := by
  refine (Ideal.matmul_constant_zero_apply dot_S1000x256_S256x512_S1000x512_1_0_0_1_n_n none a w (ix2 p k)).trans ?_
  rw [← Equiv.sum_comp (contrEquiv1 dot_S1000x256_S256x512_S1000x512_1_0_0_1_n_n 256 rfl rfl).symm]
  refine Finset.sum_congr rfl fun l _ => ?_
  have hl := contrEquiv1_symm_val dot_S1000x256_S256x512_S1000x512_1_0_0_1_n_n 256 rfl rfl l
  have el : dot_S1000x256_S256x512_S1000x512_1_0_0_1_n_n.lhsIdx (ix2 p k) ((contrEquiv1 dot_S1000x256_S256x512_S1000x512_1_0_0_1_n_n 256 rfl rfl).symm l) = ix2 p l :=
    funext fun ax => Fin.ext (by
      match ax with
      | ⟨0, _⟩ => exact mm_1000_256_512_lhs0 _ _
      | ⟨1, _⟩ => exact (dot_S1000x256_S256x512_S1000x512_1_0_0_1_n_n.lhsIdx_val_of_single rfl _ _).trans hl)
  have er : dot_S1000x256_S256x512_S1000x512_1_0_0_1_n_n.rhsIdx (ix2 p k) ((contrEquiv1 dot_S1000x256_S256x512_S1000x512_1_0_0_1_n_n 256 rfl rfl).symm l) = ix2 l k :=
    funext fun ax => Fin.ext (by
      match ax with
      | ⟨0, _⟩ => exact (dot_S1000x256_S256x512_S1000x512_1_0_0_1_n_n.rhsIdx_val_of_single rfl _ _).trans hl
      | ⟨1, _⟩ => exact mm_1000_256_512_rhs1 _ _)
  rw [el, er]

theorem mm_1000_512_512_lhs0 (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl

theorem mm_1000_512_512_rhs1 (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-- The product of an `1000 × 512` block with a `512 × 512` block into the zero accumulator, read at `(p, k)`:
    the sum over the 512 contracted columns. -/
theorem mm_1000_512_512 (a : FVec Ideal S1000x512 .bf16) (w : FVec Ideal S512x512 .bf16) (p : Fin 1000) (k : Fin 512) :
    matmul dot_S1000x512_S512x512_S1000x512_1_0_0_1_n_n none a w (constant (F := Ideal) S1000x512 .f32 0x00000000#32) (ix2 p k)
      = ∑ l : Fin 512, a (ix2 p l) * w (ix2 l k) := by
  refine (Ideal.matmul_constant_zero_apply dot_S1000x512_S512x512_S1000x512_1_0_0_1_n_n none a w (ix2 p k)).trans ?_
  rw [← Equiv.sum_comp (contrEquiv1 dot_S1000x512_S512x512_S1000x512_1_0_0_1_n_n 512 rfl rfl).symm]
  refine Finset.sum_congr rfl fun l _ => ?_
  have hl := contrEquiv1_symm_val dot_S1000x512_S512x512_S1000x512_1_0_0_1_n_n 512 rfl rfl l
  have el : dot_S1000x512_S512x512_S1000x512_1_0_0_1_n_n.lhsIdx (ix2 p k) ((contrEquiv1 dot_S1000x512_S512x512_S1000x512_1_0_0_1_n_n 512 rfl rfl).symm l) = ix2 p l :=
    funext fun ax => Fin.ext (by
      match ax with
      | ⟨0, _⟩ => exact mm_1000_512_512_lhs0 _ _
      | ⟨1, _⟩ => exact (dot_S1000x512_S512x512_S1000x512_1_0_0_1_n_n.lhsIdx_val_of_single rfl _ _).trans hl)
  have er : dot_S1000x512_S512x512_S1000x512_1_0_0_1_n_n.rhsIdx (ix2 p k) ((contrEquiv1 dot_S1000x512_S512x512_S1000x512_1_0_0_1_n_n 512 rfl rfl).symm l) = ix2 l k :=
    funext fun ax => Fin.ext (by
      match ax with
      | ⟨0, _⟩ => exact (dot_S1000x512_S512x512_S1000x512_1_0_0_1_n_n.rhsIdx_val_of_single rfl _ _).trans hl
      | ⟨1, _⟩ => exact mm_1000_512_512_rhs1 _ _)
  rw [el, er]

theorem mm_1000_512_256_lhs0 (i : S1000x256.Idx) (q : dot_S1000x512_S512x256_S1000x256_1_0_0_1_n_n.contr.Idx) : (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide),
    dif_pos (show (0 : Fin S1000x512.rank) ∈ dot_S1000x512_S512x256_S1000x256_1_0_0_1_n_n.lhsNonContracting by decide)]
  rfl

theorem mm_1000_512_256_rhs1 (i : S1000x256.Idx) (q : dot_S1000x512_S512x256_S1000x256_1_0_0_1_n_n.contr.Idx) : (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide),
    dif_pos (show (1 : Fin S512x256.rank) ∈ dot_S1000x512_S512x256_S1000x256_1_0_0_1_n_n.rhsNonContracting by decide)]
  rfl

/-- The product of an `1000 × 512` block with a `512 × 256` block into the zero accumulator, read at `(p, k)`:
    the sum over the 512 contracted columns. -/
theorem mm_1000_512_256 (a : FVec Ideal S1000x512 .bf16) (w : FVec Ideal S512x256 .bf16) (p : Fin 1000) (k : Fin 256) :
    matmul dot_S1000x512_S512x256_S1000x256_1_0_0_1_n_n none a w (constant (F := Ideal) S1000x256 .f32 0x00000000#32) (ix2 p k)
      = ∑ l : Fin 512, a (ix2 p l) * w (ix2 l k) := by
  refine (Ideal.matmul_constant_zero_apply dot_S1000x512_S512x256_S1000x256_1_0_0_1_n_n none a w (ix2 p k)).trans ?_
  rw [← Equiv.sum_comp (contrEquiv1 dot_S1000x512_S512x256_S1000x256_1_0_0_1_n_n 512 rfl rfl).symm]
  refine Finset.sum_congr rfl fun l _ => ?_
  have hl := contrEquiv1_symm_val dot_S1000x512_S512x256_S1000x256_1_0_0_1_n_n 512 rfl rfl l
  have el : dot_S1000x512_S512x256_S1000x256_1_0_0_1_n_n.lhsIdx (ix2 p k) ((contrEquiv1 dot_S1000x512_S512x256_S1000x256_1_0_0_1_n_n 512 rfl rfl).symm l) = ix2 p l :=
    funext fun ax => Fin.ext (by
      match ax with
      | ⟨0, _⟩ => exact mm_1000_512_256_lhs0 _ _
      | ⟨1, _⟩ => exact (dot_S1000x512_S512x256_S1000x256_1_0_0_1_n_n.lhsIdx_val_of_single rfl _ _).trans hl)
  have er : dot_S1000x512_S512x256_S1000x256_1_0_0_1_n_n.rhsIdx (ix2 p k) ((contrEquiv1 dot_S1000x512_S512x256_S1000x256_1_0_0_1_n_n 512 rfl rfl).symm l) = ix2 l k :=
    funext fun ax => Fin.ext (by
      match ax with
      | ⟨0, _⟩ => exact (dot_S1000x512_S512x256_S1000x256_1_0_0_1_n_n.rhsIdx_val_of_single rfl _ _).trans hl
      | ⟨1, _⟩ => exact mm_1000_512_256_rhs1 _ _)
  rw [el, er]

/-- A bias row of 512 entries, given a unit leading axis and repeated down 1000 rows, read at `(p, k)`: its entry `k`. -/
theorem bias_1000_512 (v : FVec Ideal S512 .f32) (h1 : S512.ShapeCasts S1x512) (h2 : S1x512.Broadcasts S1000x512)
    (p : Fin 1000) (k : Fin 512) :
    broadcastTo S1000x512 (shapeCast S1x512 v h1) h2 (ix2 p k) = v (ix1 k) :=
  (broadcastTo_1b_ab_apply _ h2 p k).trans (shapeCast_a_1a_apply v h1 0 k)

/-- A bias row of 256 entries, given a unit leading axis and repeated down 1000 rows, read at `(p, k)`: its entry `k`. -/
theorem bias_1000_256 (v : FVec Ideal S256 .f32) (h1 : S256.ShapeCasts S1x256) (h2 : S1x256.Broadcasts S1000x256)
    (p : Fin 1000) (k : Fin 256) :
    broadcastTo S1000x256 (shapeCast S1x256 v h1) h2 (ix2 p k) = v (ix1 k) :=
  (broadcastTo_1b_ab_apply _ h2 p k).trans (shapeCast_a_1a_apply v h1 0 k)

/-- Element `(p, q)` of the node block's stored value is feature `q` of the updated node computed from row `p` of the
    node features and of the aggregated messages. -/
theorem node_pay_apply (x0 : Vec Ideal S1000x256 .f32) (x1 : Vec Ideal S1000x512 .f32) (x2 : Vec Ideal S256x512 .bf16)
    (x3 : Vec Ideal S512x512 .bf16) (x4 : Vec Ideal S512 .f32) (x5 : Vec Ideal S512x256 .bf16) (x6 : Vec Ideal S256 .f32)
    (p : Fin 1000) (q : Fin 256) :
    Cert.KernelIdeal.Gen.k1_pay1 (F := Ideal) x0 x1 x2 x3 x4 x5 x6 (ix2 p q)
      = Cert.Layer.nodeRow (Cert.Layer.row x0 p) (Cert.Layer.row x1 p) x2 x3 x4 x5 x6 q := by
  unfold Cert.KernelIdeal.Gen.k1_pay1
  simp only [shapeCast_self, addf_apply, maximumf_apply, truncf_apply, broadcast_apply, mm_1000_256_512, mm_1000_512_512,
    mm_1000_512_256, bias_1000_512, bias_1000_256]
  rfl

end Cert.Bodies

end
-- ==== Proof.NodeRegion.lean ====
/-
  The node region: once every block has been written back, the output array holds the layer's updated nodes.

  The grid has 20 points, one per block of 1000 nodes. At point `t` the node features and the aggregated messages
  are seen through windows of 1000 rows, rows `1000 t … 1000 t + 999` of their arrays; the two weight matrices of the
  first product, its bias, the matrix of the second product and its bias are seen whole; and block `t` of the output
  is written back. What the body stores at `(p, q)` is feature `q` of the updated node computed from row `p` of the
  two windows, that is from node `1000 t + p` of the arrays. So every block written back is the matching block of a
  single function on the whole output array — the updated nodes of the arrays the region starts from. The 20 blocks
  partition the 20000 rows (node `r` lies in block `r / 1000`), so at the end the output array is that function.
-/
import proofs.«129480_j13915694039743_1_alg».proof.Proof.Gen.KernelIdeal.Frame
import proofs.«129480_j13915694039743_1_alg».proof.Proof.Layer
import proofs.«129480_j13915694039743_1_alg».proof.Proof.NodeBody
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeRegion

open Cert.KernelIdeal Cert.KernelIdeal.Gen Cert.Layer

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of every window at every grid point: the node features, the aggregated messages and the output
    advance by one block of 1000 rows per point and never move along the columns; the weights and the biases are
    always at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem t_lt (t : Fin cfg1.N) : t.val < 20 := lt_of_lt_of_eq t.isLt N_1

/-- Node `1000 t + p`: the node that row `p` of a window stands for at point `t`. -/
def nrow (t : Fin cfg1.N) (p : Fin 1000) : Fin 20000 := ⟨1000 * t.val + p.val, by have := t_lt t; have := p.isLt; omega⟩

theorem iblk1_0_apply (c : Dev nD) (t : Fin cfg1.N) (p : Fin 1000) (l : Fin 256) :
    (iblk1 V c 0 t : Vec Ideal S1000x256 .f32) (ix2 p l) = (V c main_arg0 : S20000x256.Idx → EReal) (ix2 (nrow t p) l) := by
  unfold iblk1
  rw [View.read_apply]
  show V c main_arg0 _ = V c main_arg0 _
  congr 1
  funext a; apply Fin.ext
  obtain ⟨e00, e01, e10, e11, e20, e21, e30, e31, e40, e50, e51, e60, e70, e71⟩ := idx_facts t
  match a with
  | ⟨0, _⟩ => show win1_0.index t (0 : Fin 2) * 1000 + 1 * p.val = 1000 * t.val + p.val; rw [e00]; omega
  | ⟨1, _⟩ => show win1_0.index t (1 : Fin 2) * 256 + 1 * l.val = l.val; rw [e01]; omega

theorem iblk1_1_apply (c : Dev nD) (t : Fin cfg1.N) (p : Fin 1000) (l : Fin 512) :
    (iblk1 V c 1 t : Vec Ideal S1000x512 .f32) (ix2 p l) = (V c main_v30 : S20000x512.Idx → EReal) (ix2 (nrow t p) l) := by
  unfold iblk1
  rw [View.read_apply]
  show V c main_v30 _ = V c main_v30 _
  congr 1
  funext a; apply Fin.ext
  obtain ⟨e00, e01, e10, e11, e20, e21, e30, e31, e40, e50, e51, e60, e70, e71⟩ := idx_facts t
  match a with
  | ⟨0, _⟩ => show win1_1.index t (0 : Fin 2) * 1000 + 1 * p.val = 1000 * t.val + p.val; rw [e10]; omega
  | ⟨1, _⟩ => show win1_1.index t (1 : Fin 2) * 512 + 1 * l.val = l.val; rw [e11]; omega

theorem iblk1_2_eq (c : Dev nD) (t : Fin cfg1.N) :
    (iblk1 V c 2 t : Vec Ideal S256x512 .bf16) = (V c main_v32 : S256x512.Idx → EReal) := by
  funext y
  unfold iblk1
  rw [View.read_apply]
  show V c main_v32 _ = V c main_v32 y
  congr 1
  funext a; apply Fin.ext
  obtain ⟨e00, e01, e10, e11, e20, e21, e30, e31, e40, e50, e51, e60, e70, e71⟩ := idx_facts t
  match a with
  | ⟨0, _⟩ => show win1_2.index t (0 : Fin 2) * 256 + 1 * (y 0).val = (y 0).val; rw [e20]; omega
  | ⟨1, _⟩ => show win1_2.index t (1 : Fin 2) * 512 + 1 * (y 1).val = (y 1).val; rw [e21]; omega

theorem iblk1_3_eq (c : Dev nD) (t : Fin cfg1.N) :
    (iblk1 V c 3 t : Vec Ideal S512x512 .bf16) = (V c main_v34 : S512x512.Idx → EReal) := by
  funext y
  unfold iblk1
  rw [View.read_apply]
  show V c main_v34 _ = V c main_v34 y
  congr 1
  funext a; apply Fin.ext
  obtain ⟨e00, e01, e10, e11, e20, e21, e30, e31, e40, e50, e51, e60, e70, e71⟩ := idx_facts t
  match a with
  | ⟨0, _⟩ => show win1_3.index t (0 : Fin 2) * 512 + 1 * (y 0).val = (y 0).val; rw [e30]; omega
  | ⟨1, _⟩ => show win1_3.index t (1 : Fin 2) * 512 + 1 * (y 1).val = (y 1).val; rw [e31]; omega

theorem iblk1_4_eq (c : Dev nD) (t : Fin cfg1.N) :
    (iblk1 V c 4 t : Vec Ideal S512 .f32) = (V c main_arg8 : S512.Idx → EReal) := by
  funext y
  unfold iblk1
  rw [View.read_apply]
  show V c main_arg8 _ = V c main_arg8 y
  congr 1
  funext a; apply Fin.ext
  obtain ⟨e00, e01, e10, e11, e20, e21, e30, e31, e40, e50, e51, e60, e70, e71⟩ := idx_facts t
  match a with
  | ⟨0, _⟩ => show win1_4.index t (0 : Fin 1) * 512 + 1 * (y 0).val = (y 0).val; rw [e40]; omega

theorem iblk1_5_eq (c : Dev nD) (t : Fin cfg1.N) :
    (iblk1 V c 5 t : Vec Ideal S512x256 .bf16) = (V c main_v35 : S512x256.Idx → EReal) := by
  funext y
  unfold iblk1
  rw [View.read_apply]
  show V c main_v35 _ = V c main_v35 y
  congr 1
  funext a; apply Fin.ext
  obtain ⟨e00, e01, e10, e11, e20, e21, e30, e31, e40, e50, e51, e60, e70, e71⟩ := idx_facts t
  match a with
  | ⟨0, _⟩ => show win1_5.index t (0 : Fin 2) * 512 + 1 * (y 0).val = (y 0).val; rw [e50]; omega
  | ⟨1, _⟩ => show win1_5.index t (1 : Fin 2) * 256 + 1 * (y 1).val = (y 1).val; rw [e51]; omega

theorem iblk1_6_eq (c : Dev nD) (t : Fin cfg1.N) :
    (iblk1 V c 6 t : Vec Ideal S256 .f32) = (V c main_arg10 : S256.Idx → EReal) := by
  funext y
  unfold iblk1
  rw [View.read_apply]
  show V c main_arg10 _ = V c main_arg10 y
  congr 1
  funext a; apply Fin.ext
  obtain ⟨e00, e01, e10, e11, e20, e21, e30, e31, e40, e50, e51, e60, e70, e71⟩ := idx_facts t
  match a with
  | ⟨0, _⟩ => show win1_6.index t (0 : Fin 1) * 256 + 1 * (y 0).val = (y 0).val; rw [e60]; omega

/-- Entry `(p, q)` of the output window at point `t` sits at `(1000 t + p, q)` in the output array. -/
theorem emb7 (t : Fin cfg1.N) (p : Fin 1000) (q : Fin 256) :
    ((cfg1.win 7).blk t).view.emb (ix2 p q : S1000x256.Idx) = (ix2 (nrow t p) q : S20000x256.Idx) := by
  funext a; apply Fin.ext
  obtain ⟨e00, e01, e10, e11, e20, e21, e30, e31, e40, e50, e51, e60, e70, e71⟩ := idx_facts t
  match a with
  | ⟨0, _⟩ => show win1_7.index t (0 : Fin 2) * 1000 + 1 * p.val = 1000 * t.val + p.val; rw [e70]; omega
  | ⟨1, _⟩ => show win1_7.index t (1 : Fin 2) * 256 + 1 * q.val = q.val; rw [e71]; omega

/-- The block written back at point `t` is the output window's view of the updated nodes of the entry arrays. -/
theorem flushed_eq (c : Dev nD) (t : Fin cfg1.N) :
    (dat1 V c).flushed 7 t = ((cfg1.win 7).blk t).view.read (Elt Ideal)
      (nodeOut (V c main_arg0) (V c main_v30) (V c main_v32) (V c main_v34) (V c main_arg8) (V c main_v35) (V c main_arg10)) := by
  show (cfg1.win 7).cut (grid1.coords t) ((dat1 V c).after 7 t) = _
  rw [after1_7]
  unfold out1_7
  rw [View.canon_unit_zero hz2]
  simp only [View.ld_unit_zero (S := S1000x256) hz2, View.ld_unit_zero (S := S1000x512) hz2, View.ld_unit_zero (S := S256x512) hz2,
    View.ld_unit_zero (S := S512x512) hz2, View.ld_unit_zero (S := S512) hz1, View.ld_unit_zero (S := S512x256) hz2,
    View.ld_unit_zero (S := S256) hz1]
  refine funext fun (j : S1000x256.Idx) => ?_
  obtain ⟨p, q, rfl⟩ : ∃ (p : Fin 1000) (q : Fin 256), j = ix2 p q := ⟨j 0, j 1, eq_ix2 j⟩
  rw [View.read_apply, emb7 t p q]
  refine (Cert.Bodies.node_pay_apply (iblk1 V c 0 t) (iblk1 V c 1 t) (iblk1 V c 2 t) (iblk1 V c 3 t) (iblk1 V c 4 t) (iblk1 V c 5 t)
    (iblk1 V c 6 t) p q).trans ?_
  have hX : row (iblk1 V c 0 t : Vec Ideal S1000x256 .f32) p = row (V c main_arg0 : S20000x256.Idx → EReal) (nrow t p) :=
    funext fun l => iblk1_0_apply V c t p l
  have hG : row (iblk1 V c 1 t : Vec Ideal S1000x512 .f32) p = row (V c main_v30 : S20000x512.Idx → EReal) (nrow t p) :=
    funext fun l => iblk1_1_apply V c t p l
  rw [hX, hG, iblk1_2_eq V c t, iblk1_3_eq V c t, iblk1_4_eq V c t, iblk1_5_eq V c t, iblk1_6_eq V c t]
  rfl

/-- An index of the output array lies in point `t`'s block exactly when, on each axis, its coordinate lies in the
    block's range. -/
theorem mem_blk (t : Fin cfg1.N) (i : S20000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v36).slice (win1_7.rect t)).set ↔ _
  rw [View.set_slice_whole, Rect.mem_set_unit]
  exact Iff.rfl

/-- Each entry of the output array belongs to the block of point `row / 1000`, and that point writes its block back. -/
theorem cover (i : S20000x256.Idx) : ∃ t : Fin cfg1.N, (cfg1.win 7).flush t = true ∧ i ∈ ((cfg1.win 7).blk t).view.set := by
  have hi0 : (i 0).val < 20000 := (i 0).isLt
  have hi1 : (i 1).val < 256 := (i 1).isLt
  have hN : cfg1.N = 20 := N_1
  refine ⟨⟨(i 0).val / 1000, by rw [hN]; omega⟩, flush1_7 _, ?_⟩
  rw [mem_blk]
  obtain ⟨-, -, -, -, -, -, -, -, -, -, -, -, e70, e71⟩ := idx_facts ⟨(i 0).val / 1000, by rw [hN]; omega⟩
  intro a
  match a with
  | ⟨0, _⟩ =>
    show win1_7.index ⟨(i 0).val / 1000, _⟩ (0 : Fin 2) * 1000 ≤ (i 0).val ∧ (i 0).val < win1_7.index ⟨(i 0).val / 1000, _⟩ (0 : Fin 2) * 1000 + 1000
    rw [e70]; show (i 0).val / 1000 * 1000 ≤ (i 0).val ∧ (i 0).val < (i 0).val / 1000 * 1000 + 1000; omega
  | ⟨1, _⟩ =>
    show win1_7.index ⟨(i 0).val / 1000, _⟩ (1 : Fin 2) * 256 ≤ (i 1).val ∧ (i 1).val < win1_7.index ⟨(i 0).val / 1000, _⟩ (1 : Fin 2) * 256 + 256
    rw [e71]; omega

/-- When the node region ends, the output array holds the updated nodes of the arrays the region began with. -/
theorem final (c : Dev nD) :
    (dat1 V c).arrAt 7 cfg1.N
      = nodeOut (V c main_arg0) (V c main_v30) (V c main_v32) (V c main_v34) (V c main_arg8) (V c main_v35) (V c main_arg10) :=
  (dat1 V c).arrAt_eq_of_cover 7 _ (fun t _ => flushed_eq V c t) cover

end Cert.KernelIdeal.NodeRegion

end
-- ==== Proof.RefEdge.lean ====
/-
  The reference's messages are the layer's messages.

  The reference multiplies the concatenated row [source row, target row, edge features] (576 columns) by one weight
  matrix; a sum over the 576 columns is the sum of the sums over the three pieces, and on each piece the concatenated
  row is the piece and the weight rows are that piece's block of rows. Addition of extended reals is associative and
  commutative, so nothing is asked of the values.
-/
import proofs.«129480_j13915694039743_1_alg».proof.Proof.Gen.ReferenceIdeal.Read
import proofs.«129480_j13915694039743_1_alg».proof.Proof.Layer
import Idealize.ShloMosaic.Lib.ValueIdx
import Idealize.ShloMosaic.Lib.Pipeline.Value
import Idealize.ShloMosaic.PureOps.Ideal.Laws

noncomputable section

open scoped BigOperators

namespace Cert.RefLayer

open Cert.ReferenceIdeal Cert.ReferenceIdeal.Gen Cert.ReferenceIdeal.Read Idealize.ShloMosaic Idealize.ShloMosaic.ValueIdx

/-- The concatenated edge input at a column of the first piece is the gathered source row there. -/
theorem cat_src (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (j : S320000x576.Idx) (i : S320000x256.Idx)
    (h0 : (i 0).val = (j 0).val) (h1 : (i 1).val = (j 1).val) :
    val_main_v18 (F := Ideal) x0 x1 x2 j = val_main_v10 (F := Ideal) x0 x1 i := by
  unfold val_main_v18
  refine concatenate_apply_piece 1 _ _ j 0 (by simp) S320000x256 _ rfl rfl 0 rfl i ?_ ?_
  · intro b hb
    match b, hb with
    | ⟨0, _⟩, _ => exact h0
    | ⟨1, _⟩, hb => exact absurd rfl hb
  · show 0 + (i 1).val = (j 1).val
    omega

/-- At a column of the second piece, 256 further on, it is the gathered target row. -/
theorem cat_tgt (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (j : S320000x576.Idx) (i : S320000x256.Idx)
    (h0 : (i 0).val = (j 0).val) (h1 : 256 + (i 1).val = (j 1).val) :
    val_main_v18 (F := Ideal) x0 x1 x2 j = val_main_v17 (F := Ideal) x0 x1 i := by
  unfold val_main_v18
  refine concatenate_apply_piece 1 _ _ j 1 (by simp) S320000x256 _ rfl rfl 256 rfl i ?_ ?_
  · intro b hb
    match b, hb with
    | ⟨0, _⟩, _ => exact h0
    | ⟨1, _⟩, hb => exact absurd rfl hb
  · exact h1

/-- At a column of the third piece, 512 further on, it is the edge's own feature. -/
theorem cat_edge (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (j : S320000x576.Idx) (i : S320000x64.Idx)
    (h0 : (i 0).val = (j 0).val) (h1 : 512 + (i 1).val = (j 1).val) :
    val_main_v18 (F := Ideal) x0 x1 x2 j = x2 i := by
  unfold val_main_v18
  refine concatenate_apply_piece 1 _ _ j 2 (by simp) S320000x64 _ rfl rfl 512 rfl i ?_ ?_
  · intro b hb
    match b, hb with
    | ⟨0, _⟩, _ => exact h0
    | ⟨1, _⟩, hb => exact absurd rfl hb
  · exact h1

/-- The rectified first layer of the edge network at edge `p`, hidden unit `k`: the sum over the 576 concatenated
    columns is the three sums over the source row, the target row and the edge's features. -/
theorem hidden_eq (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S576x512, .f32⟩ : BufTy).Contents (Elt Ideal))
    (x4 : (⟨S512, .f32⟩ : BufTy).Contents (Elt Ideal)) (p : Fin 320000) (k : Fin 512) :
    val_main_v23 (F := Ideal) x0 x1 x2 x3 x4 (ix2 p k)
      = Cert.Layer.edgeHidden (Cert.Layer.row (val_main_v10 (F := Ideal) x0 x1) p)
          (Cert.Layer.row (val_main_v17 (F := Ideal) x0 x1) p) (Cert.Layer.row x2 p)
          (Cert.Layer.rowsFrom 0 576 (by norm_num) x3) (Cert.Layer.rowsFrom 256 576 (by norm_num) x3)
          (Cert.Layer.rowsFrom 512 576 (by norm_num) x3) x4 k := by
  rw [val_main_v23_apply, val_main_v22_apply, val_main_v19_apply, val_main_v21_apply, val_main_v20_apply,
    val_main_call0_v0_apply, val_main_call0_cst_apply, Cert.Layer.sum_fin576]
  unfold Cert.Layer.edgeHidden Cert.Layer.row Cert.Layer.rowsFrom
  refine congrArg₂ max (congrArg₂ (· + ·) (congrArg₂ (· + ·) (congrArg₂ (· + ·) ?_ ?_) ?_) ?_) rfl
  · refine Finset.sum_congr rfl fun l _ => congrArg₂ (· * ·) (cat_src x0 x1 x2 _ _ rfl rfl) (congrArg x3 ?_)
    funext a
    match a with
    | ⟨0, _⟩ => exact Fin.ext (Nat.zero_add _).symm
    | ⟨1, _⟩ => rfl
  · refine Finset.sum_congr rfl fun l _ => congrArg₂ (· * ·) (cat_tgt x0 x1 x2 _ _ rfl rfl) (congrArg x3 ?_)
    funext a
    match a with
    | ⟨0, _⟩ => rfl
    | ⟨1, _⟩ => rfl
  · refine Finset.sum_congr rfl fun l _ => congrArg₂ (· * ·) (cat_edge x0 x1 x2 _ _ rfl rfl) (congrArg x3 ?_)
    funext a
    match a with
    | ⟨0, _⟩ => rfl
    | ⟨1, _⟩ => rfl
  · refine congrArg x4 ?_
    funext a
    match a with
    | ⟨0, _⟩ => rfl

/-- The messages of the reference are the layer's: each is the second matrix product of the rectified hidden
    row, plus the bias. -/
theorem messages_eq (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S576x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) :
    val_main_v27 (F := Ideal) x0 x1 x2 x3 x4 x5 x6
      = Cert.Layer.edgeMsg (val_main_v10 (F := Ideal) x0 x1) (val_main_v17 (F := Ideal) x0 x1) x2
          (Cert.Layer.rowsFrom 0 576 (by norm_num) x3) (Cert.Layer.rowsFrom 256 576 (by norm_num) x3) (Cert.Layer.rowsFrom 512 576 (by norm_num) x3) x4 x5 x6 := by
  funext j
  obtain ⟨p, q, rfl⟩ : ∃ (p : Fin 320000) (q : Fin 512), j = ix2 p q := ⟨j 0, j 1, eq_ix2 j⟩
  rw [val_main_v27_apply, val_main_v24_apply, val_main_v26_apply, val_main_v25_apply]
  refine Eq.trans ?_ (show (∑ k : Fin 512, Cert.Layer.edgeHidden (Cert.Layer.row (val_main_v10 (F := Ideal) x0 x1) p)
          (Cert.Layer.row (val_main_v17 (F := Ideal) x0 x1) p) (Cert.Layer.row x2 p)
          (Cert.Layer.rowsFrom 0 576 (by norm_num) x3) (Cert.Layer.rowsFrom 256 576 (by norm_num) x3)
          (Cert.Layer.rowsFrom 512 576 (by norm_num) x3) x4 k * x5 (ix2 k q)) + x6 (ix1 q) = _ from rfl)
  refine congrArg₂ (· + ·) ?_ ?_
  · refine Finset.sum_congr rfl fun k _ => congrArg₂ (· * ·) ?_ (congrArg x5 ?_)
    · have e : lidx_main_v24 (ix2 p q) k = ix2 p k := by
        funext a
        match a with
        | ⟨0, _⟩ => rfl
        | ⟨1, _⟩ => rfl
      exact (congrArg (val_main_v23 (F := Ideal) x0 x1 x2 x3 x4) e).trans (hidden_eq x0 x1 x2 x3 x4 p k)
    · funext a
      match a with
      | ⟨0, _⟩ => rfl
      | ⟨1, _⟩ => rfl
  · refine congrArg x6 ?_
    funext a
    match a with
    | ⟨0, _⟩ => rfl

end Cert.RefLayer

end
-- ==== Proof.RefNode.lean ====
/-
  The reference's result is the layer's result on the nodes.

  The reference multiplies the concatenated row [node features, aggregated messages] (768 columns) by one weight
  matrix; a sum over the 768 columns is the sum over the first 256 plus the sum over the other 512, and on each piece
  the concatenated row is the piece and the weight rows are that piece's block of rows. The aggregated messages stay
  an unopened array: the statement holds whatever they are.
-/
import proofs.«129480_j13915694039743_1_alg».proof.Proof.Gen.ReferenceIdeal.Read
import proofs.«129480_j13915694039743_1_alg».proof.Proof.Layer
import Idealize.ShloMosaic.Lib.ValueIdx
import Idealize.ShloMosaic.Lib.Pipeline.Value
import Idealize.ShloMosaic.PureOps.Ideal.Laws

noncomputable section

open scoped BigOperators

namespace Cert.RefLayer

open Cert.ReferenceIdeal Cert.ReferenceIdeal.Gen Cert.ReferenceIdeal.Read Idealize.ShloMosaic Idealize.ShloMosaic.ValueIdx

/-- The concatenated node input at a column of the first piece is the node's own feature there. -/
theorem cat_self (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S576x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (j : S20000x768.Idx) (i : S20000x256.Idx)
    (h0 : (i 0).val = (j 0).val) (h1 : (i 1).val = (j 1).val) :
    val_main_v31 (F := Ideal) x0 x1 x2 x3 x4 x5 x6 j = x0 i := by
  unfold val_main_v31
  refine concatenate_pair_apply_left (s₁ := S20000x256) (s₂ := S20000x512) 1 _ _ _ j rfl i ?_
  intro b
  match b with
  | ⟨0, _⟩ => exact h0
  | ⟨1, _⟩ => exact h1

/-- At a column of the second piece, 256 further on, it is the aggregated message. -/
theorem cat_agg (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S576x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (j : S20000x768.Idx) (i : S20000x512.Idx)
    (h0 : (i 0).val = (j 0).val) (h1 : 256 + (i 1).val = (j 1).val) :
    val_main_v31 (F := Ideal) x0 x1 x2 x3 x4 x5 x6 j = val_main_v30 (F := Ideal) x0 x1 x2 x3 x4 x5 x6 i := by
  unfold val_main_v31
  refine concatenate_pair_apply_right (s₁ := S20000x256) (s₂ := S20000x512) 1 _ _ _ j rfl rfl i ?_ ?_
  · intro b hb
    match b, hb with
    | ⟨0, _⟩, _ => exact h0
    | ⟨1, _⟩, hb => exact absurd rfl hb
  · show (i 1).val + 256 = (j 1).val
    omega

/-- The rectified first layer of the node network at node `p`, hidden unit `k`: the sum over the 768 concatenated
    columns is the sum over the node's features plus the sum over its aggregated messages. -/
theorem nodeHidden_eq (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S576x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal))
    (x7 : (⟨S768x512, .f32⟩ : BufTy).Contents (Elt Ideal)) (x8 : (⟨S512, .f32⟩ : BufTy).Contents (Elt Ideal)) (p : Fin 20000) (k : Fin 512) :
    val_main_v36 (F := Ideal) x0 x1 x2 x3 x4 x5 x6 x7 x8 (ix2 p k)
      = Cert.Layer.nodeHidden (Cert.Layer.row x0 p)
          (Cert.Layer.row (val_main_v30 (F := Ideal) x0 x1 x2 x3 x4 x5 x6) p)
          (Cert.Layer.rowsFrom 0 768 (by norm_num) x7) (Cert.Layer.rowsFrom 256 768 (by norm_num) x7) x8 k := by
  rw [val_main_v36_apply, val_main_v35_apply, val_main_v32_apply, val_main_v34_apply, val_main_v33_apply,
    val_main_call1_v0_apply, val_main_call1_cst_apply, Cert.Layer.sum_fin768]
  unfold Cert.Layer.nodeHidden Cert.Layer.row Cert.Layer.rowsFrom
  refine congrArg₂ max (congrArg₂ (· + ·) (congrArg₂ (· + ·) ?_ ?_) ?_) rfl
  · refine Finset.sum_congr rfl fun l _ =>
      congrArg₂ (· * ·) (cat_self x0 x1 x2 x3 x4 x5 x6 _ _ rfl rfl) (congrArg x7 ?_)
    funext a
    match a with
    | ⟨0, _⟩ => exact Fin.ext (Nat.zero_add _).symm
    | ⟨1, _⟩ => rfl
  · refine Finset.sum_congr rfl fun l _ =>
      congrArg₂ (· * ·) (cat_agg x0 x1 x2 x3 x4 x5 x6 _ _ rfl rfl) (congrArg x7 ?_)
    funext a
    match a with
    | ⟨0, _⟩ => rfl
    | ⟨1, _⟩ => rfl
  · refine congrArg x8 ?_
    funext a
    match a with
    | ⟨0, _⟩ => rfl

/-- The reference's result is the layer's: each node's feature plus the second matrix product of its rectified
    hidden row and the bias. -/
theorem output_eq (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S576x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal))
    (x7 : (⟨S768x512, .f32⟩ : BufTy).Contents (Elt Ideal)) (x8 : (⟨S512, .f32⟩ : BufTy).Contents (Elt Ideal))
    (x9 : (⟨S512x256, .f32⟩ : BufTy).Contents (Elt Ideal)) (x10 : (⟨S256, .f32⟩ : BufTy).Contents (Elt Ideal)) :
    val_main_v41 (F := Ideal) x0 x1 x2 x3 x4 x5 x6 x7 x8 x9 x10
      = Cert.Layer.nodeOut x0 (val_main_v30 (F := Ideal) x0 x1 x2 x3 x4 x5 x6) (Cert.Layer.rowsFrom 0 768 (by norm_num) x7) (Cert.Layer.rowsFrom 256 768 (by norm_num) x7) x8 x9 x10 := by
  funext j
  obtain ⟨p, q, rfl⟩ : ∃ (p : Fin 20000) (q : Fin 256), j = ix2 p q := ⟨j 0, j 1, eq_ix2 j⟩
  rw [val_main_v41_apply, val_main_v40_apply, val_main_v37_apply, val_main_v39_apply, val_main_v38_apply]
  refine Eq.trans ?_ (show x0 (ix2 p q) + ((∑ k : Fin 512, Cert.Layer.nodeHidden (Cert.Layer.row x0 p)
          (Cert.Layer.row (val_main_v30 (F := Ideal) x0 x1 x2 x3 x4 x5 x6) p)
          (Cert.Layer.rowsFrom 0 768 (by norm_num) x7) (Cert.Layer.rowsFrom 256 768 (by norm_num) x7) x8 k
            * x9 (ix2 k q)) + x10 (ix1 q)) = _ from rfl)
  refine congrArg₂ (· + ·) rfl (congrArg₂ (· + ·) ?_ ?_)
  · refine Finset.sum_congr rfl fun k _ => congrArg₂ (· * ·) ?_ (congrArg x9 ?_)
    · have e : lidx_main_v37 (ix2 p q) k = ix2 p k := by
        funext a
        match a with
        | ⟨0, _⟩ => rfl
        | ⟨1, _⟩ => rfl
      exact (congrArg (val_main_v36 (F := Ideal) x0 x1 x2 x3 x4 x5 x6 x7 x8) e).trans
        (nodeHidden_eq x0 x1 x2 x3 x4 x5 x6 x7 x8 p k)
    · funext a
      match a with
      | ⟨0, _⟩ => rfl
      | ⟨1, _⟩ => rfl
  · refine congrArg x10 ?_
    funext a
    match a with
    | ⟨0, _⟩ => rfl

end Cert.RefLayer

end
-- ==== Proof.KernelValue.lean ====
/-
  The idealized kernel program's result is the reference's result of the same launch arrays.

  The program is two stretches of host operations around two kernel regions. Its first stretch computes, from the
  launch arrays, exactly what the reference computes before its first matrix product — the source and target index
  arrays with negative indices wrapped, the rows gathered at them — and besides that only changes of format (the
  identity over the extended reals) and the three row blocks of the first weight matrix. The edge region then leaves
  the layer's messages of those arrays, which are the reference's messages: its one product over the concatenated
  row is the sum of the three products over the pieces. The second stretch applies the same scatter-add, from zeros,
  at the same target indices, to equal messages, and cuts the third weight matrix into its two row blocks. The node
  region leaves the layer's node update of those arrays, which is the reference's result by the same law.
  Each step below reads one array at one boundary of the program back to the launch memory.
-/
import proofs.«129480_j13915694039743_1_alg».proof.Proof.Gen.KernelIdeal.Frame
import proofs.«129480_j13915694039743_1_alg».proof.Proof.Gen.ReferenceIdeal.Read
import proofs.«129480_j13915694039743_1_alg».proof.Proof.Layer
import proofs.«129480_j13915694039743_1_alg».proof.Proof.EdgeRegion
import proofs.«129480_j13915694039743_1_alg».proof.Proof.NodeRegion
import proofs.«129480_j13915694039743_1_alg».proof.Proof.RefEdge
import proofs.«129480_j13915694039743_1_alg».proof.Proof.RefNode
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.Layer
open Cert.ReferenceIdeal.Read (val_main_v3 val_main_v10 val_main_v17 val_main_v27 val_main_v30 val_main_v41)

variable (m : (ℓ : Loc nD τ sig) → Buf (Elt Ideal) ℓ) (ρ : Dev nD → PrngReg)

/-- A block of consecutive rows cut out of a matrix, read entry by entry: the rows from `off` on. -/
theorem slice_rows {n d r : Nat} (off : Nat) (h : off + r ≤ n) (X : (⟨2, ![n, d]⟩ : Shape).Idx → EReal)
    (hs : (⟨2, ![n, d]⟩ : Shape).Slices ![off, 0] (⟨2, ![r, d]⟩ : Shape)) :
    extractStridedSlice (⟨2, ![r, d]⟩ : Shape) ![off, 0] X hs = rowsFrom off n h X := by
  funext i
  unfold rowsFrom
  refine extractStridedSlice_apply ![off, 0] X hs i _ fun a => ?_
  match a with
  | ⟨0, _⟩ => rfl
  | ⟨1, _⟩ => show (i 1).val = 0 + (i 1).val; omega

/-! ## What the edge region is entered with: the first stretch of host operations, from the launch memory -/

theorem V1_v11 (c : Dev nD) : V1 m ρ c main_v11 = val_main_v10 (F := Ideal) (m ((c : Thread nD τ).loc main_arg0)) (m ((c : Thread nD τ).loc main_arg1)) := by
  show StableHlo.after hostOps0 (W0 m ρ c) (Proc.devRef .tc main_v11) = _
  after_results_simp <;> rfl

theorem V1_v18 (c : Dev nD) : V1 m ρ c main_v18 = val_main_v17 (F := Ideal) (m ((c : Thread nD τ).loc main_arg0)) (m ((c : Thread nD τ).loc main_arg1)) := by
  show StableHlo.after hostOps0 (W0 m ρ c) (Proc.devRef .tc main_v18) = _
  after_results_simp <;> rfl

theorem V1_v19 (c : Dev nD) : V1 m ρ c main_v19 = (m ((c : Thread nD τ).loc main_arg2)) := by
  show StableHlo.after hostOps0 (W0 m ρ c) (Proc.devRef .tc main_v19) = _
  after_results_simp <;> rfl

theorem V1_v21 (c : Dev nD) : V1 m ρ c main_v21 = rowsFrom 0 576 (by norm_num) (m ((c : Thread nD τ).loc main_arg3)) := by
  show StableHlo.after hostOps0 (W0 m ρ c) (Proc.devRef .tc main_v21) = _
  after_results_simp
  exact slice_rows 0 _ _ slices_S576x512_S256x512_0_0

theorem V1_v23 (c : Dev nD) : V1 m ρ c main_v23 = rowsFrom 256 576 (by norm_num) (m ((c : Thread nD τ).loc main_arg3)) := by
  show StableHlo.after hostOps0 (W0 m ρ c) (Proc.devRef .tc main_v23) = _
  after_results_simp
  exact slice_rows 256 _ _ slices_S576x512_S256x512_256_0

theorem V1_v25 (c : Dev nD) : V1 m ρ c main_v25 = rowsFrom 512 576 (by norm_num) (m ((c : Thread nD τ).loc main_arg3)) := by
  show StableHlo.after hostOps0 (W0 m ρ c) (Proc.devRef .tc main_v25) = _
  after_results_simp
  exact slice_rows 512 _ _ slices_S576x512_S64x512_512_0

theorem V1_arg4 (c : Dev nD) : V1 m ρ c main_arg4 = (m ((c : Thread nD τ).loc main_arg4)) := by
  show StableHlo.after hostOps0 (W0 m ρ c) (Proc.devRef .tc main_arg4) = _
  after_results_simp <;> rfl

theorem V1_v26 (c : Dev nD) : V1 m ρ c main_v26 = (m ((c : Thread nD τ).loc main_arg5)) := by
  show StableHlo.after hostOps0 (W0 m ρ c) (Proc.devRef .tc main_v26) = _
  after_results_simp <;> rfl

theorem V1_arg6 (c : Dev nD) : V1 m ρ c main_arg6 = (m ((c : Thread nD τ).loc main_arg6)) := by
  show StableHlo.after hostOps0 (W0 m ρ c) (Proc.devRef .tc main_arg6) = _
  after_results_simp <;> rfl

/-! ## Across the edge region: what the second stretch of host operations starts from -/

theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W2_arg0 (c : Dev nD) : W2 m ρ c (Proc.devRef .tc main_arg0) = m ((c : Thread nD τ).loc main_arg0) :=
  (W2_of_ne m ρ c main_arg0 (by decide)).trans (W1_arg0 m ρ c)

theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W2_arg7 (c : Dev nD) : W2 m ρ c (Proc.devRef .tc main_arg7) = m ((c : Thread nD τ).loc main_arg7) :=
  (W2_of_ne m ρ c main_arg7 (by decide)).trans (W1_arg7 m ρ c)

theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W2_arg8 (c : Dev nD) : W2 m ρ c (Proc.devRef .tc main_arg8) = m ((c : Thread nD τ).loc main_arg8) :=
  (W2_of_ne m ρ c main_arg8 (by decide)).trans (W1_arg8 m ρ c)

theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W2_arg9 (c : Dev nD) : W2 m ρ c (Proc.devRef .tc main_arg9) = m ((c : Thread nD τ).loc main_arg9) :=
  (W2_of_ne m ρ c main_arg9 (by decide)).trans (W1_arg9 m ρ c)

theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem W2_arg10 (c : Dev nD) : W2 m ρ c (Proc.devRef .tc main_arg10) = m ((c : Thread nD τ).loc main_arg10) :=
  (W2_of_ne m ρ c main_arg10 (by decide)).trans (W1_arg10 m ρ c)

/-- After the edge region the message array holds the reference's messages of the launch arrays: the region leaves
    the layer's messages of what it was entered with, the gathered rows and index arrays it was entered with are the
    reference's own, a change of format is the identity and the three weight slices are the rows of the one matrix. -/
theorem W2_v27 (c : Dev nD) : W2 m ρ c (Proc.devRef .tc main_v27) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 9).trans ?_
  rw [Cert.KernelIdeal.EdgeRegion.final (V1 m ρ) c, V1_v11, V1_v18, V1_v19, V1_v21, V1_v23, V1_v25, V1_arg4, V1_v26, V1_arg6]
  exact (Cert.RefLayer.messages_eq _ _ _ _ _ _ _).symm

/-! ## What the node region is entered with: the second stretch, from the edge region's exit -/

/-- The aggregated messages: the same scatter-add, from zeros, at the same target indices, of equal messages. -/
theorem V3_v30 (c : Dev nD) : V3 m ρ c main_v30 = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v30) = _
  after_results_simp
  rw [W2_v27 m ρ c, W2_v3 m ρ c]
  rfl

theorem V3_v32 (c : Dev nD) : V3 m ρ c main_v32 = rowsFrom 0 768 (by norm_num) (m ((c : Thread nD τ).loc main_arg7)) := by
  show StableHlo.after hostOps1 (W2 m ρ c) (Proc.devRef .tc main_v32) = _
  after_results_simp
  rw [W2_arg7 m ρ c]
  exact slice_rows 0 _ _ slices_S768x512_S256x512_0_0

theorem V3_v34 (c : Dev nD) : V3 m ρ c main_v34 = rowsFrom 256 768 (by norm_num) (m ((c : Thread nD τ).loc main_arg7)) := by
  show StableHlo.after hostOps1 (W2 m ρ c) (Proc.devRef .tc main_v34) = _
  after_results_simp
  rw [W2_arg7 m ρ c]
  exact slice_rows 256 _ _ slices_S768x512_S512x512_256_0

theorem V3_v35 (c : Dev nD) : V3 m ρ c main_v35 = (m ((c : Thread nD τ).loc main_arg9)) := by
  show StableHlo.after hostOps1 (W2 m ρ c) (Proc.devRef .tc main_v35) = _
  after_results_simp
  rw [W2_arg9 m ρ c]
  rfl

theorem V3_arg0 (c : Dev nD) : V3 m ρ c main_arg0 = m ((c : Thread nD τ).loc main_arg0) := by
  show StableHlo.after hostOps1 (W2 m ρ c) (Proc.devRef .tc main_arg0) = _
  after_results_simp
  exact W2_arg0 m ρ c

theorem V3_arg8 (c : Dev nD) : V3 m ρ c main_arg8 = m ((c : Thread nD τ).loc main_arg8) := by
  show StableHlo.after hostOps1 (W2 m ρ c) (Proc.devRef .tc main_arg8) = _
  after_results_simp
  exact W2_arg8 m ρ c

theorem V3_arg10 (c : Dev nD) : V3 m ρ c main_arg10 = m ((c : Thread nD τ).loc main_arg10) := by
  show StableHlo.after hostOps1 (W2 m ρ c) (Proc.devRef .tc main_arg10) = _
  after_results_simp
  exact W2_arg10 m ρ c

/-! ## The result -/

/-- The program's last boundary holds, in the result array, the reference's result of the launch arrays. -/
theorem result_eq (c : Dev nD) :
    W4 m ρ c (Proc.devRef .tc main_v36) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 7).trans ?_
  rw [Cert.KernelIdeal.NodeRegion.final (V3 m ρ) c, V3_arg0, V3_v30, V3_v32, V3_v34, V3_arg8, V3_v35, V3_arg10]
  exact (Cert.RefLayer.output_eq _ _ _ _ _ _ _ _ _ _ _).symm

end Cert.KernelIdeal.Whole

end
-- ==== Proof.lean ====
/-
  One message-passing layer of a graph network: a kernel program against a plain reference.

  Both programs gather each edge's source and target node rows, run an edge network
  `relu([src, tgt, edge] · W1 + b1) · W2 + b2`, add the messages up per target node, and update every node by
  `x + (relu([x, agg] · W3 + b3) · W4 + b4)`. The kernel program splits each product over a concatenated row into
  products over the pieces, blocks the edges and the nodes into tiles, and changes number formats on the way.
  Over the extended reals a change of format is the identity, a tiling is a regrouping, and the sum over a
  concatenated axis is the sum of the sums over its pieces — addition is associative and commutative, so the
  precondition (finite inputs) is never opened. The three frames are the programs' generated runs; the kernel program
  has no idealization to account for; the last conjunct states both runs at ONE result: the reference's result
  of the launch arrays, which the kernel program's last boundary holds as well.
-/
import proofs.«129480_j13915694039743_1_alg».proof.Defs
import proofs.«129480_j13915694039743_1_alg».proof.Proof.Gen.Kernel
import proofs.«129480_j13915694039743_1_alg».proof.Proof.Gen.Kernel.Skeleton
import proofs.«129480_j13915694039743_1_alg».proof.Proof.Gen.Kernel.Launch
import proofs.«129480_j13915694039743_1_alg».proof.Proof.Gen.Kernel.Points
import proofs.«129480_j13915694039743_1_alg».proof.Proof.Gen.Kernel.Frame
import proofs.«129480_j13915694039743_1_alg».proof.Proof.Gen.KernelIdeal
import proofs.«129480_j13915694039743_1_alg».proof.Proof.Gen.KernelIdeal.Skeleton
import proofs.«129480_j13915694039743_1_alg».proof.Proof.Gen.KernelIdeal.Launch
import proofs.«129480_j13915694039743_1_alg».proof.Proof.Gen.KernelIdeal.Points
import proofs.«129480_j13915694039743_1_alg».proof.Proof.Gen.KernelIdeal.Frame
import proofs.«129480_j13915694039743_1_alg».proof.Proof.Gen.ReferenceIdeal
import proofs.«129480_j13915694039743_1_alg».proof.Proof.Gen.ReferenceIdeal.Run
import proofs.«129480_j13915694039743_1_alg».proof.Proof.Gen.ReferenceIdeal.Read
import proofs.«129480_j13915694039743_1_alg».proof.Proof.Gen.Pre_finite_inputs
import proofs.«129480_j13915694039743_1_alg».proof.Proof.KernelRun
import proofs.«129480_j13915694039743_1_alg».proof.Proof.KernelValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel program was rewritten on the way to the extended reals. -/
theorem preserves : Cert.preserves_Kernel_KernelIdeal := trivial

/-- From memories agreeing on the arguments both programs end with the same result: the reference's result of
    the kernel program's launch arrays. -/
theorem algebraic : Cert.algebraic_KernelIdeal_ReferenceIdeal := by
  intro m ρ m' ρ' _ hagree
  refine ⟨fun c => Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v41_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
